-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S4096x128 : Shape := ⟨2, ![4096, 128]⟩
abbrev S262144 : Shape := ⟨1, ![262144]⟩
abbrev S4096x8x7 : Shape := ⟨3, ![4096, 8, 7]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg7 : FVec F S64x7 .f32) (main_arg8 : FVec F S7 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x7 .f32 := Host.absf main_arg7
  let main_cst_6 : FVec F S_ .f32 := constant S_ .f32 0x7F800000#32
  let main_v20 : FVec F S64x7 .f32 := broadcastInDim S64x7 ![] bcast_S_S64x7 main_cst_6
  let main_v21 : IVec S64x7 1 := cmpf .olt main_v19 main_v20
  let main_c_7 : IVec S_ 1 := constantI S_ 1 1#1
  let main_v22 : IVec S_ 1 := (fun x v => Host.reduce IntOp.andi x v reducesTo_S64x7_S_d0_1 h_S_) main_v21 main_c_7
  let main_v23 : IVec S_ 1 := andi main_v18 main_v22
  let main_v24 : FVec F S7 .f32 := Host.absf main_arg8
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S262144x128 .f32) (main_arg1 : FVec F S4096x128 .f32) (main_arg2 : IVec S262144 1) (main_arg3 : IVec S262144 32) (main_arg4 : IVec S4096x8x7 1) (main_arg5 : FVec F S256x64 .f32) (main_arg6 : FVec F S64 .f32) (main_arg7 : FVec F S64x7 .f32) (main_arg8 : FVec F S7 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S256x64 .f32 := Host.absf main_arg5
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_v13 main_v16
-- ==== Kernel.lean ====
abbrev S262144x128 : Shape := ⟨2, ![262144, 128]⟩
abbrev S4096x128 : Shape := ⟨2, ![4096, 128]⟩
abbrev S262144 : Shape := ⟨1, ![262144]⟩
abbrev S4096x8x7 : Shape := ⟨3, ![4096, 8, 7]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩
abbrev S4096 : Shape := ⟨1, ![4096]⟩
abbrev S262144x1 : Shape := ⟨2, ![262144, 1]⟩
abbrev S1 : Shape := ⟨1, ![1]⟩
abbrev S4095 : Shape := ⟨1, ![4095]⟩
abbrev S128x64 : Shape := ⟨2, ![128, 64]⟩
abbrev S4096x64 : Shape := ⟨2, ![4096, 64]⟩
abbrev S262144x64 : Shape := ⟨2, ![262144, 64]⟩
abbrev S1x64 : Shape := ⟨2, ![1, 64]⟩
abbrev S1x7 : Shape := ⟨2, ![1, 7]⟩
abbrev S262144x7 : Shape := ⟨2, ![262144, 7]⟩
abbrev S8192x128 : Shape := ⟨2, ![8192, 128]⟩
abbrev S8192x64 : Shape := ⟨2, ![8192, 64]⟩
abbrev S8192x7 : Shape := ⟨2, ![8192, 7]⟩
abbrev S4096x9x7 : Shape := ⟨3, ![4096, 9, 7]⟩
abbrev S262144x2 : Shape := ⟨2, ![262144, 2]⟩
abbrev S4096x56 : Shape := ⟨2, ![4096, 56]⟩

abbrev nBuf : Space → Nat
  | .hbm => 90
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S4096x128, .f32⟩
  | .hbm, ⟨2, _⟩ => ⟨S262144, .i1⟩
  | .hbm, ⟨3, _⟩ => ⟨S262144, .i32⟩
  | .hbm, ⟨4, _⟩ => ⟨S4096x8x7, .i1⟩
  | .hbm, ⟨5, _⟩ => ⟨S256x64, .f32⟩
  | .hbm, ⟨6, _⟩ => ⟨S64, .f32⟩
  | .hbm, ⟨7, _⟩ => ⟨S64x7, .f32⟩
  | .hbm, ⟨8, _⟩ => ⟨S7, .f32⟩
  | .hbm, ⟨9, _⟩ => ⟨S262144, .i32⟩
  | .hbm, ⟨10, _⟩ => ⟨S_, .i32⟩
  | .hbm, ⟨11, _⟩ => ⟨S_, .i32⟩
  | .hbm, ⟨12, _⟩ => ⟨S262144, .i32⟩
  | .hbm, ⟨13, _⟩ => ⟨S_, .i32⟩
  | .hbm, ⟨14, _⟩ => ⟨S4096, .i32⟩
  | .hbm, ⟨15, _⟩ => ⟨S262144x1, .i32⟩
  | .hbm, ⟨16, _⟩ => ⟨S4096, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4095, .i32⟩
  | .hbm, ⟨23, _⟩ => ⟨S4096, .i32⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S262144, .i1⟩
  | .hbm, ⟨41, _⟩ => ⟨S128x64, .f32⟩
  | .hbm, ⟨42, _⟩ => ⟨S128x64, .f32⟩
  | .hbm, ⟨43, _⟩ => ⟨S4096x64, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S262144x64, .f32⟩
  | .hbm, ⟨53, _⟩ => ⟨S262144x64, .bf16⟩
  | .hbm, ⟨54, _⟩ => ⟨S1x64, .f32⟩
  | .hbm, ⟨55, _⟩ => ⟨S1x7, .f32⟩
  | .hbm, ⟨56, _⟩ => ⟨S262144x7, .f32⟩
  | .hbm, ⟨57, _⟩ => ⟨S_, .f32⟩
  | .hbm, ⟨58, _⟩ => ⟨S4096x9x7, .f32⟩
  | .hbm, ⟨59, _⟩ => ⟨S_, .i32⟩
  | .hbm, ⟨60, _⟩ => ⟨S_, .i32⟩
  | .hbm, ⟨61, _⟩ => ⟨S262144, .i32⟩
  | .hbm, ⟨62, _⟩ => ⟨S262144, .i32⟩
  | .hbm, ⟨63, _⟩ => ⟨S_, .i32⟩
  | .hbm, ⟨64, _⟩ => ⟨S_, .i32⟩
  | .hbm, ⟨65, _⟩ => ⟨S262144, .i32⟩
  | .hbm, ⟨66, _⟩ => ⟨S262144, .i32⟩
  | .hbm, ⟨67, _⟩ => ⟨S_, .i32⟩
  | .hbm, ⟨68, _⟩ => ⟨S262144, .i32⟩
  | .hbm, ⟨69, _⟩ => ⟨S262144, .i1⟩
  | .hbm, ⟨70, _⟩ => ⟨S_, .i32⟩
  | .hbm, ⟨71, _⟩ => ⟨S262144, .i32⟩
  | .hbm, ⟨72, _⟩ => ⟨S262144, .i32⟩
  | .hbm, ⟨73, _⟩ => ⟨S262144, .i32⟩
  | .hbm, ⟨74, _⟩ => ⟨S_, .i32⟩
  | .hbm, ⟨75, _⟩ => ⟨S262144, .i32⟩
  | .hbm, ⟨76, _⟩ => ⟨S262144, .i1⟩
  | .hbm, ⟨77, _⟩ => ⟨S_, .i32⟩
  | .hbm, ⟨78, _⟩ => ⟨S262144, .i32⟩
  | .hbm, ⟨79, _⟩ => ⟨S262144, .i32⟩
  | .hbm, ⟨80, _⟩ => ⟨S262144, .i32⟩
  | .hbm, ⟨81, _⟩ => ⟨S262144x1, .i32⟩
  | .hbm, ⟨82, _⟩ => ⟨S262144x1, .i32⟩
  | .hbm, ⟨83, _⟩ => ⟨S262144x2, .i32⟩
  | .hbm, ⟨84, _⟩ => ⟨S4096x9x7, .f32⟩
  | .hbm, ⟨85, _⟩ => ⟨S4096x8x7, .f32⟩
  | .hbm, ⟨86, _⟩ => ⟨S_, .f32⟩
  | .hbm, ⟨87, _⟩ => ⟨S4096x8x7, .f32⟩
  | .hbm, ⟨88, _⟩ => ⟨S4096x8x7, .f32⟩
  | .hbm, ⟨89, _⟩ => ⟨S4096x56, .f32⟩
  | .local _ .vmem, ⟨0, _⟩ => ⟨S8192x128, .f32⟩
  | .local _ .vmem, ⟨1, _⟩ => ⟨S8192x128, .f32⟩
  | .local _ .vmem, ⟨2, _⟩ => ⟨S8192x64, .bf16⟩
  | .local _ .vmem, ⟨3, _⟩ => ⟨S8192x64, .bf16⟩
  | .local _ .vmem, ⟨4, _⟩ => ⟨S128x64, .f32⟩
  | .local _ .vmem, ⟨5, _⟩ => ⟨S1x64, .f32⟩
  | .local _ .vmem, ⟨6, _⟩ => ⟨S64x7, .f32⟩
  | .local _ .vmem, ⟨7, _⟩ => ⟨S1x7, .f32⟩
  | .local _ .vmem, ⟨8, _⟩ => ⟨S8192x7, .f32⟩
  | .local _ .vmem, ⟨9, _⟩ => ⟨S8192x7, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_call1_call0_c : Ref sig .tc := ⟨.hbm, 19, rfl⟩
abbrev main_call1_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst : Ref sig .tc := ⟨.hbm, 57, rfl⟩
abbrev main_v36 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v37 : Ref sig .tc := ⟨.hbm, 62, rfl⟩
abbrev main_c_8 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_c_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_c_12 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_13 : Ref sig .tc := ⟨.hbm, 86, rfl⟩
abbrev main_call4_v0 : Ref sig .tc := ⟨.hbm, 87, rfl⟩
abbrev main_v54 : Ref sig .tc := ⟨.hbm, 88, rfl⟩
abbrev main_v55 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x7 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S4096 : S_.BroadcastsInDim S4096 (![] : Fin 0 → Fin S4096.rank)
  bcast_S262144_S262144x1_0 : S262144.BroadcastsInDim S262144x1 (![0] : Fin 1 → Fin S262144x1.rank)
  bcast_S_S1 : S_.BroadcastsInDim S1 (![] : Fin 0 → Fin S1.rank)
  reduceWindows_S4096_S4096_w4096s1p4095_0 : S4096.ReduceWindows (![4096] : Fin 1 → Nat) ![1] ![4095] ![0] S4096
  slices_S4096_S4095_0 : S4096.Slices ![0] S4095
  concatenates_S1_S4095_S4096_d0 : Shape.Concatenates [S1, S4095] S4096 0
  bcast_S_S262144 : S_.BroadcastsInDim S262144 (![] : Fin 0 → Fin S262144.rank)
  slices_S256x64_S128x64_0_0 : S256x64.Slices ![0, 0] S128x64
  slices_S256x64_S128x64_128_0 : S256x64.Slices ![128, 0] S128x64
  bitsLt_bf16_f32 : FTy.bits .bf16 < FTy.bits .f32
  shapeCasts_S64_S1x64 : S64.ShapeCasts S1x64
  shapeCasts_S7_S1x7 : S7.ShapeCasts S1x7
  inb_S8192x128_S8192x128_0_0 : ∀ a, (![0, 0] : Fin 2 → Nat) a + S8192x128.size a ≤ S8192x128.size a
  h_S8192x128 : 0 < S8192x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S8192x7 : S1x7.Broadcasts S8192x7
  inb_S8192x7_S8192x7_0_0 : ∀ a, (![0, 0] : Fin 2 → Nat) a + S8192x7.size a ≤ S8192x7.size a
  h_S8192x7 : 0 < S8192x7.numel
  bcast_S_S4096x9x7 : S_.BroadcastsInDim S4096x9x7 (![] : Fin 0 → Fin S4096x9x7.rank)
  concatenates_S262144x1_S262144x1_S262144x2_d1 : Shape.Concatenates [S262144x1, S262144x1] S262144x2 1
  slices_S4096x9x7_S4096x8x7_0_0_0 : S4096x9x7.Slices ![0, 0, 0] S4096x8x7
  bcast_S_S4096x8x7 : S_.BroadcastsInDim S4096x8x7 (![] : Fin 0 → Fin S4096x8x7.rank)
  shapeCasts_S4096x8x7_S4096x56 : S4096x8x7.ShapeCasts S4096x56
  scatter_S4096_S262144x1_S262144_n_0_0_1_wf : ScatterDims.WF S4096 S262144x1 S262144 [] [0] [0] 1
  gather_S4096_S262144x1_S262144_n_0_n_n_0_1_1_wf : GatherDims.WF S4096 S262144x1 S262144 [] [0] [] [0] [] 1 ![1]
  dot_S4096x128_S128x64_S4096x64_1_0_0_1_n_n_wf : DotDims.WF S4096x128 S128x64 S4096x64 [1] [0] [0] [1] [] []
  gather_S4096x64_S262144x1_S262144x64_1_0_n_n_0_1_164_wf : GatherDims.WF S4096x64 S262144x1 S262144x64 [1] [0] [] [0] [] 1 ![1, 64]
  dot_S8192x128_S128x64_S8192x64_1_0_0_1_n_n_wf : DotDims.WF S8192x128 S128x64 S8192x64 [1] [0] [0] [1] [] []
  dot_S8192x64_S64x7_S8192x7_1_0_0_1_n_n_wf : DotDims.WF S8192x64 S64x7 S8192x7 [1] [0] [0] [1] [] []
  scatter_S4096x9x7_S262144x2_S262144x7_1_01_01_1_wf : ScatterDims.WF S4096x9x7 S262144x2 S262144x7 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .bf16 = 32 ∨ (Rect.block (s := S262144x64) S8192x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x7.size a ≤ S64x7.size a
  hwx0_4 : ∀ i : grid0.Coords, EltTy.bits .f32 = 32 ∨ (Rect.block (s := S64x7) S64x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x7.size a ≤ S262144x7.size a
  hwx0_6 : ∀ i : grid0.Coords, EltTy.bits .f32 = 32 ∨ (Rect.block (s := S262144x7) S8192x7.size (cc0_transform_6 i) (hinb0_6 i)).WholeWords (EltTy.packing .f32)

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S4096x64_S262144x1_S262144x64_1_0_n_n_0_1_164 : GatherDims S4096x64 S262144x1 S262144x64 where
  offsetDims := [1]
  collapsedSliceDims := [0]
  operandBatchingDims := []
  startIndicesBatchingDims := []
  startIndexMap := [0]
  indexVectorDim := 1
  sliceSizes := ![1, 64]
  wf := gather_S4096x64_S262144x1_S262144x64_1_0_n_n_0_1_164_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x7_S8192x7_1_0_0_1_n_n : DotDims S8192x64 S64x7 S8192x7 where
  lhsContracting := [1]
  rhsContracting := [0]
  lhsNonContracting := [0]
  rhsNonContracting := [1]
  lhsBatch := []
  rhsBatch := []
  wf := dot_S8192x64_S64x7_S8192x7_1_0_0_1_n_n_wf
def scatter_S4096x9x7_S262144x2_S262144x7_1_01_01_1 : ScatterDims S4096x9x7 S262144x2 S262144x7 where
  updateWindowDims := [1]
  insertedWindowDims := [0, 1]
  scatterDimsToOperandDims := [0, 1]
  indexVectorDim := 1
  wf := scatter_S4096x9x7_S262144x2_S262144x7_1_01_01_1_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S8192x7.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S4096x128 : Shape := ⟨2, ![4096, 128]⟩
abbrev S262144 : Shape := ⟨1, ![262144]⟩
abbrev S4096x8x7 : Shape := ⟨3, ![4096, 8, 7]⟩
abbrev S256x64 : Shape := ⟨2, ![256, 64]⟩
abbrev S64 : Shape := ⟨1, ![64]⟩
abbrev S64x7 : Shape := ⟨2, ![64, 7]⟩
abbrev S7 : Shape := ⟨1, ![7]⟩
abbrev S_ : Shape := ⟨0, ![]⟩
abbrev S4096 : Shape := ⟨1, ![4096]⟩
abbrev S262144x1 : Shape := ⟨2, ![262144, 1]⟩
abbrev S1 : Shape := ⟨1, ![1]⟩
abbrev S4095 : Shape := ⟨1, ![4095]⟩
abbrev S128x64 : Shape := ⟨2, ![128, 64]⟩
abbrev S262144x64 : Shape := ⟨2, ![262144, 64]⟩
abbrev S1x64 : Shape := ⟨2, ![1, 64]⟩
abbrev S262144x7 : Shape := ⟨2, ![262144, 7]⟩
abbrev S1x7 : Shape := ⟨2, ![1, 7]⟩
abbrev S4096x9x7 : Shape := ⟨3, ![4096, 9, 7]⟩
abbrev S262144x2 : Shape := ⟨2, ![262144, 2]⟩
abbrev S4096x56 : Shape := ⟨2, ![4096, 56]⟩

abbrev nBuf : Space → Nat
  | .hbm => 98
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S4096x128, .f32⟩
  | .hbm, ⟨2, _⟩ => ⟨S262144, .i1⟩
  | .hbm, ⟨3, _⟩ => ⟨S262144, .i32⟩
  | .hbm, ⟨4, _⟩ => ⟨S4096x8x7, .i1⟩
  | .hbm, ⟨5, _⟩ => ⟨S256x64, .f32⟩
  | .hbm, ⟨6, _⟩ => ⟨S64, .f32⟩
  | .hbm, ⟨7, _⟩ => ⟨S64x7, .f32⟩
  | .hbm, ⟨8, _⟩ => ⟨S7, .f32⟩
  | .hbm, ⟨9, _⟩ => ⟨S262144, .i32⟩
  | .hbm, ⟨10, _⟩ => ⟨S_, .i32⟩
  | .hbm, ⟨11, _⟩ => ⟨S_, .i32⟩
  | .hbm, ⟨12, _⟩ => ⟨S262144, .i32⟩
  | .hbm, ⟨13, _⟩ => ⟨S_, .i32⟩
  | .hbm, ⟨14, _⟩ => ⟨S4096, .i32⟩
  | .hbm, ⟨15, _⟩ => ⟨S262144x1, .i32⟩
  | .hbm, ⟨16, _⟩ => ⟨S4096, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4095, .i32⟩
  | .hbm, ⟨23, _⟩ => ⟨S4096, .i32⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S_, .i32⟩
  | .hbm, ⟨28, _⟩ => ⟨S262144, .i32⟩
  | .hbm, ⟨29, _⟩ => ⟨S262144, .i1⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S262144, .i32⟩
  | .hbm, ⟨34, _⟩ => ⟨S262144x1, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S262144, .i32⟩
  | .hbm, ⟨39, _⟩ => ⟨S262144, .i1⟩
  | .hbm, ⟨40, _⟩ => ⟨S262144, .i1⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x128, .f32⟩
  | .hbm, ⟨50, _⟩ => ⟨S128x64, .f32⟩
  | .hbm, ⟨51, _⟩ => ⟨S262144x64, .f32⟩
  | .hbm, ⟨52, _⟩ => ⟨S128x64, .f32⟩
  | .hbm, ⟨53, _⟩ => ⟨S262144x64, .f32⟩
  | .hbm, ⟨54, _⟩ => ⟨S262144x64, .f32⟩
  | .hbm, ⟨55, _⟩ => ⟨S1x64, .f32⟩
  | .hbm, ⟨56, _⟩ => ⟨S262144x64, .f32⟩
  | .hbm, ⟨57, _⟩ => ⟨S262144x64, .f32⟩
  | .hbm, ⟨58, _⟩ => ⟨S_, .f32⟩
  | .hbm, ⟨59, _⟩ => ⟨S262144x64, .f32⟩
  | .hbm, ⟨60, _⟩ => ⟨S262144x64, .f32⟩
  | .hbm, ⟨61, _⟩ => ⟨S262144x7, .f32⟩
  | .hbm, ⟨62, _⟩ => ⟨S1x7, .f32⟩
  | .hbm, ⟨63, _⟩ => ⟨S262144x7, .f32⟩
  | .hbm, ⟨64, _⟩ => ⟨S262144x7, .f32⟩
  | .hbm, ⟨65, _⟩ => ⟨S_, .f32⟩
  | .hbm, ⟨66, _⟩ => ⟨S4096x9x7, .f32⟩
  | .hbm, ⟨67, _⟩ => ⟨S_, .i32⟩
  | .hbm, ⟨68, _⟩ => ⟨S_, .i32⟩
  | .hbm, ⟨69, _⟩ => ⟨S262144, .i32⟩
  | .hbm, ⟨70, _⟩ => ⟨S262144, .i32⟩
  | .hbm, ⟨71, _⟩ => ⟨S_, .i32⟩
  | .hbm, ⟨72, _⟩ => ⟨S_, .i32⟩
  | .hbm, ⟨73, _⟩ => ⟨S262144, .i32⟩
  | .hbm, ⟨74, _⟩ => ⟨S262144, .i32⟩
  | .hbm, ⟨75, _⟩ => ⟨S_, .i32⟩
  | .hbm, ⟨76, _⟩ => ⟨S262144, .i32⟩
  | .hbm, ⟨77, _⟩ => ⟨S262144, .i1⟩
  | .hbm, ⟨78, _⟩ => ⟨S_, .i32⟩
  | .hbm, ⟨79, _⟩ => ⟨S262144, .i32⟩
  | .hbm, ⟨80, _⟩ => ⟨S262144, .i32⟩
  | .hbm, ⟨81, _⟩ => ⟨S262144, .i32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S262144, .i32⟩
  | .hbm, ⟨89, _⟩ => ⟨S262144x1, .i32⟩
  | .hbm, ⟨90, _⟩ => ⟨S262144x1, .i32⟩
  | .hbm, ⟨91, _⟩ => ⟨S262144x2, .i32⟩
  | .hbm, ⟨92, _⟩ => ⟨S4096x9x7, .f32⟩
  | .hbm, ⟨93, _⟩ => ⟨S4096x8x7, .f32⟩
  | .hbm, ⟨94, _⟩ => ⟨S_, .f32⟩
  | .hbm, ⟨95, _⟩ => ⟨S4096x8x7, .f32⟩
  | .hbm, ⟨96, _⟩ => ⟨S4096x8x7, .f32⟩
  | .hbm, ⟨97, _⟩ => ⟨S4096x56, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_call1_call0_c : Ref sig .tc := ⟨.hbm, 19, rfl⟩
abbrev main_call1_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_cst : Ref sig .tc := ⟨.hbm, 58, rfl⟩
abbrev main_call2_v0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst : Ref sig .tc := ⟨.hbm, 65, rfl⟩
abbrev main_v42 : Ref sig .tc := ⟨.hbm, 66, rfl⟩
abbrev main_c_7 : Ref sig .tc := ⟨.hbm, 67, rfl⟩
abbrev main_call3_v0 : Ref sig .tc := ⟨.hbm, 68, rfl⟩
abbrev main_call3_v1 : Ref sig .tc := ⟨.hbm, 69, rfl⟩
abbrev main_v43 : Ref sig .tc := ⟨.hbm, 70, rfl⟩
abbrev main_c_8 : Ref sig .tc := ⟨.hbm, 71, rfl⟩
abbrev main_call4_v0 : Ref sig .tc := ⟨.hbm, 72, rfl⟩
abbrev main_call4_v1 : Ref sig .tc := ⟨.hbm, 73, rfl⟩
abbrev main_v44 : Ref sig .tc := ⟨.hbm, 74, rfl⟩
abbrev main_c_9 : Ref sig .tc := ⟨.hbm, 75, rfl⟩
abbrev main_v45 : Ref sig .tc := ⟨.hbm, 76, rfl⟩
abbrev main_v46 : Ref sig .tc := ⟨.hbm, 77, rfl⟩
abbrev main_c_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_11 : Ref sig .tc := ⟨.hbm, 82, rfl⟩
abbrev main_v50 : Ref sig .tc := ⟨.hbm, 83, rfl⟩
abbrev main_v51 : Ref sig .tc := ⟨.hbm, 84, rfl⟩
abbrev main_c_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_call5_v0 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]

class Facts₀ : Prop where
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S_S4096 : S_.BroadcastsInDim S4096 (![] : Fin 0 → Fin S4096.rank)
  bcast_S262144_S262144x1_0 : S262144.BroadcastsInDim S262144x1 (![0] : Fin 1 → Fin S262144x1.rank)
  bcast_S_S1 : S_.BroadcastsInDim S1 (![] : Fin 0 → Fin S1.rank)
  reduceWindows_S4096_S4096_w4096s1p4095_0 : S4096.ReduceWindows (![4096] : Fin 1 → Nat) ![1] ![4095] ![0] S4096
  slices_S4096_S4095_0 : S4096.Slices ![0] S4095
  concatenates_S1_S4095_S4096_d0 : Shape.Concatenates [S1, S4095] S4096 0
  bcast_S_S262144 : S_.BroadcastsInDim S262144 (![] : Fin 0 → Fin S262144.rank)
  slices_S256x64_S128x64_0_0 : S256x64.Slices ![0, 0] S128x64
  slices_S256x64_S128x64_128_0 : S256x64.Slices ![128, 0] S128x64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S7_S1x7_1 : S7.BroadcastsInDim S1x7 (![1] : Fin 1 → Fin S1x7.rank)
  bcast_S1x7_S262144x7_0_1 : S1x7.BroadcastsInDim S262144x7 (![0, 1] : Fin 2 → Fin S262144x7.rank)
  bcast_S_S4096x9x7 : S_.BroadcastsInDim S4096x9x7 (![] : Fin 0 → Fin S4096x9x7.rank)
  concatenates_S262144x1_S262144x1_S262144x2_d1 : Shape.Concatenates [S262144x1, S262144x1] S262144x2 1
  slices_S4096x9x7_S4096x8x7_0_0_0 : S4096x9x7.Slices ![0, 0, 0] S4096x8x7
  bcast_S_S4096x8x7 : S_.BroadcastsInDim S4096x8x7 (![] : Fin 0 → Fin S4096x8x7.rank)
  shapeCasts_S4096x8x7_S4096x56 : S4096x8x7.ShapeCasts S4096x56
  scatter_S4096_S262144x1_S262144_n_0_0_1_wf : ScatterDims.WF S4096 S262144x1 S262144 [] [0] [0] 1
  gather_S4096_S262144x1_S262144_n_0_n_n_0_1_1_wf : GatherDims.WF S4096 S262144x1 S262144 [] [0] [] [0] [] 1 ![1]
  gather_S4096x128_S262144x1_S262144x128_1_0_n_n_0_1_1128_wf : GatherDims.WF S4096x128 S262144x1 S262144x128 [1] [0] [] [0] [] 1 ![1, 128]
  dot_S262144x128_S128x64_S262144x64_1_0_0_1_n_n_wf : DotDims.WF S262144x128 S128x64 S262144x64 [1] [0] [0] [1] [] []
  dot_S262144x64_S64x7_S262144x7_1_0_0_1_n_n_wf : DotDims.WF S262144x64 S64x7 S262144x7 [1] [0] [0] [1] [] []
  scatter_S4096x9x7_S262144x2_S262144x7_1_01_01_1_wf : ScatterDims.WF S4096x9x7 S262144x2 S262144x7 [1] [0, 1] [0, 1] 1

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S4096_S262144x1_S262144_n_0_n_n_0_1_1 : GatherDims S4096 S262144x1 S262144 where
  offsetDims := []
  collapsedSliceDims := [0]
  operandBatchingDims := []
  startIndicesBatchingDims := []
  startIndexMap := [0]
  indexVectorDim := 1
  sliceSizes := ![1]
  wf := gather_S4096_S262144x1_S262144_n_0_n_n_0_1_1_wf
def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def dot_S262144x64_S64x7_S262144x7_1_0_0_1_n_n : DotDims S262144x64 S64x7 S262144x7 where
  lhsContracting := [1]
  rhsContracting := [0]
  lhsNonContracting := [0]
  rhsNonContracting := [1]
  lhsBatch := []
  rhsBatch := []
  wf := dot_S262144x64_S64x7_S262144x7_1_0_0_1_n_n_wf
def scatter_S4096x9x7_S262144x2_S262144x7_1_01_01_1 : ScatterDims S4096x9x7 S262144x2 S262144x7 where
  updateWindowDims := [1]
  insertedWindowDims := [0, 1]
  scatterDimsToOperandDims := [0, 1]
  indexVectorDim := 1
  wf := scatter_S4096x9x7_S262144x2_S262144x7_1_01_01_1_wf

class Facts : Prop extends Facts₀ where

variable [Facts]
-- ==== Proof.KV.lean ====
/-
  What the region finds in the buffers the host prepared, and what it leaves for the host lines that follow, as closed
  terms of the argument arrays.

  The ragged group index: `selI` widens the selection bit, `csum` is its running sum over all nodes, `counts` the
  selected nodes per batch id (a scatter-add), `offsets` the exclusive running sum of the counts, `nidx` a node's batch
  id with a negative id moved up by the number of batches, `gidx = csum − 1 − offsets[batch]` the node's rank among the
  selected nodes of its batch, and `valid` says the node is selected and its rank is below eight.
  The network's operands: the first 128 rows of the weight matrix, the table's projection by the last 128 rows gathered
  per node, and the two biases as one-row matrices.
-/
import proofs.«118497_j670014898684_2_alg».proof.Proof.Gen.KernelIdeal.Frame
import Idealize.ShloMosaic.Lib.StableHlo.Run
import Idealize.ShloMosaic.PureOps.Ideal

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo

/-- The selection bit as a 32-bit word. -/
def selI (a2 : IVec S262144 1) : IVec S262144 32 := extui 32 a2 natLt_1_32

/-- The scalar zero the running sums start from. -/
def zeroS : IVec S_ 32 := broadcastInDim S_ ![] bcast_S_S_ (constantI S_ 32 0#32)

/-- The running count of selected nodes, inclusive. -/
def csum (a2 : IVec S262144 1) : IVec S262144 32 :=
  Host.reduceWindow IntOp.addi ![262144] ![1] ![262143] ![0] (selI a2) zeroS reduceWindows_S262144_S262144_w262144s1p262143_0 h_S_

/-- Selected nodes per batch id. -/
def counts (a2 : IVec S262144 1) (a3 : IVec S262144 32) : IVec S4096 32 :=
  Host.scatter scatter_S4096_S262144x1_S262144_n_0_0_1 IntOp.addi (broadcastInDim S4096 ![] bcast_S_S4096 (constantI S_ 32 0#32))
    (broadcastInDim S262144x1 ![0] bcast_S262144_S262144x1_0 a3) (selI a2)

/-- The running sum of the counts, inclusive. -/
def ccum (a2 : IVec S262144 1) (a3 : IVec S262144 32) : IVec S4096 32 :=
  Host.reduceWindow IntOp.addi ![4096] ![1] ![4095] ![0] (counts a2 a3) zeroS reduceWindows_S4096_S4096_w4096s1p4095_0 h_S_

/-- The exclusive running sum: a zero in front of all but the last inclusive sum. -/
def offsets (a2 : IVec S262144 1) (a3 : IVec S262144 32) : IVec S4096 32 :=
  concatenate S4096 0 [⟨S1, (broadcastInDim S1 ![] bcast_S_S1 (constantI S_ 32 0#32) : IVec S1 32)⟩,
    ⟨S4095, (extractStridedSlice S4095 ![0] (ccum a2 a3) slices_S4096_S4095_0 : IVec S4095 32)⟩] concatenates_S1_S4095_S4096_d0

/-- A node's batch id, a negative one moved up by the number of batches. -/
def nidx (a3 : IVec S262144 32) : IVec S262144 32 :=
  select (cmpi .slt a3 (broadcastInDim S262144 ![] bcast_S_S262144 (constantI S_ 32 0#32)))
    (addi a3 (broadcastInDim S262144 ![] bcast_S_S262144 (constantI S_ 32 4096#32))) a3

/-- The same as a column of start indices. -/
def idxK (a3 : IVec S262144 32) : IVec S262144x1 32 := broadcastInDim S262144x1 ![0] bcast_S262144_S262144x1_0 (nidx a3)

/-- A node's rank among the selected nodes of its batch. -/
def gidx (a2 : IVec S262144 1) (a3 : IVec S262144 32) : IVec S262144 32 :=
  subi (subi (csum a2) (broadcastInDim S262144 ![] bcast_S_S262144 (constantI S_ 32 1#32)))
    (Host.gather gather_S4096_S262144x1_S262144_n_0_n_n_0_1_1 (offsets a2 a3) (idxK a3))

/-- The node is selected and its rank is below eight. -/
def valid (a2 : IVec S262144 1) (a3 : IVec S262144 32) : IVec S262144 1 :=
  andi a2 (cmpi .slt (gidx a2 a3) (broadcastInDim S262144 ![] bcast_S_S262144 (constantI S_ 32 8#32)))

/-- The table projected by the last 128 rows of the weight matrix, one projected row per node. -/
def globK (a1 : FVec Ideal S4096x128 .f32) (a3 : IVec S262144 32) (a5 : FVec Ideal S256x64 .f32) : FVec Ideal S262144x64 .bf16 :=
  truncf .bf16 (Host.gather gather_S4096x64_S262144x1_S262144x64_1_0_n_n_0_1_164
    (Host.dotGeneral dot_S4096x128_S128x64_S4096x64_1_0_0_1_n_n none a1
      (extractStridedSlice S128x64 ![128, 0] a5 slices_S256x64_S128x64_128_0)) (idxK a3)) bitsLt_bf16_f32

variable (m : (ℓ : Loc nD τ sig) → Buf (Elt Ideal) ℓ)

macro "host_prefix" : tactic =>
  `(tactic| (dsimp only [Gen.V, Gen.V0]
             simp only [Gen.hostOps0, Gen.hostOps0_1, Gen.hostOps0_2, Gen.hostOps0_3, Gen.hostOps0_4, List.flatten_cons, List.flatten_nil,
               List.append_nil, List.cons_append, List.nil_append]))

theorem V_v22 (c : Dev nD) : (V m c main_v22 : S128x64.Idx → EReal) =
    extractStridedSlice S128x64 ![0, 0] (m ((c : Thread nD τ).loc main_arg5)) slices_S256x64_S128x64_0_0 := by
  host_prefix
  after_results_simp

theorem V_v33 (c : Dev nD) : (V m c main_v33 : S1x64.Idx → EReal) =
    shapeCast S1x64 (m ((c : Thread nD τ).loc main_arg6)) shapeCasts_S64_S1x64 := by
  host_prefix
  after_results_simp
  rfl

theorem V_v34 (c : Dev nD) : (V m c main_v34 : S1x7.Idx → EReal) =
    shapeCast S1x7 (m ((c : Thread nD τ).loc main_arg8)) shapeCasts_S7_S1x7 := by
  host_prefix
  after_results_simp
  rfl

theorem V_v32 (c : Dev nD) : (V m c main_v32 : S262144x64.Idx → EReal) =
    globK (m ((c : Thread nD τ).loc main_arg1)) (m ((c : Thread nD τ).loc main_arg3)) (m ((c : Thread nD τ).loc main_arg5)) := by
  host_prefix
  after_results_simp
  rfl

end Cert.KernelIdeal.KV

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.KPay.lean ====
/-
  The kernel body's one stored value, read at an index, at the ideal values.

  For a block of 8192 rows the body computes, from the rows `x0 : [8192, 128]`, the first weights `x2 : [128, 64]`, an
  already projected term `x6 : [8192, 64]`, the hidden bias `x10 : [1, 64]`, the second weights `x17 : [64, 7]` and the
  output bias `x20 : [1, 7]`, the two-layer value
      out[p, d] = Σ_h max((Σ_k x0[p, k] · x2[k, h]) + x6[p, h] + x10[0, h], 0) · x17[h, d] + x20[0, d].
  At the ideal values the narrowing and widening format changes are the identity, a shape change to the same shape is
  the identity, each matrix product into a zero accumulator is the sum over its one contracted axis, and a one-row
  array broadcast over the rows reads its row: `pay_apply` puts these together.
-/
import proofs.«118497_j670014898684_2_alg».proof.Proof.Gen.KernelIdeal.Skeleton
import proofs.«118497_j670014898684_2_alg».proof.Proof.LibPlainDot
import Idealize.ShloMosaic.Lib.ValueLayout
import Idealize.ShloMosaic.PureOps.Ideal.Laws

noncomputable section

open scoped BigOperators

namespace Cert.KernelIdeal.KPay

open Idealize.ShloMosaic Idealize.ShloMosaic.ValueIdx Cert.KernelIdeal Cert.KernelIdeal.Gen

/-- The first product `[8192, 128] × [128, 64]` into a zero accumulator, at `(p, h)`: the sum over the contracted
    axis of the products of row `p` of the left factor and column `h` of the right one (its dimension numbers are the
    plain product's). -/
theorem mm1_apply (l : FVec Ideal S8192x128 .bf16) (r : FVec Ideal S128x64 .bf16) (p : Fin 8192) (h : Fin 64) :
    matmul dot_S8192x128_S128x64_S8192x64_1_0_0_1_n_n none l r (constant (F := Ideal) S8192x64 .f32 0x00000000#32) (ix2 p h)
      = ∑ k : Fin 128, l (ix2 p k) * r (ix2 k h) :=
  Cert.Lib.plain_matmul_zero_apply 8192 128 64 none l r p h

/-- The second product `[8192, 64] × [64, 7]` into a zero accumulator, at `(p, d)`. -/
theorem mm2_apply (l : FVec Ideal S8192x64 .bf16) (r : FVec Ideal S64x7 .bf16) (p : Fin 8192) (d : Fin 7) :
    matmul dot_S8192x64_S64x7_S8192x7_1_0_0_1_n_n none l r (constant (F := Ideal) S8192x7 .f32 0x00000000#32) (ix2 p d)
      = ∑ h : Fin 64, l (ix2 p h) * r (ix2 h d) :=
  Cert.Lib.plain_matmul_zero_apply 8192 64 7 none l r p d

/-- THE STORED VALUE AT `(p, d)`: the second layer's sum over the 64 hidden units of the rectified hidden value times
    the second weight, plus the output bias; the hidden value is the first layer's sum over the 128 features plus the
    already projected term plus the hidden bias. -/
theorem pay_apply (x0 : Vec Ideal S8192x128 .f32) (x2 : Vec Ideal S128x64 .f32) (x6 : Vec Ideal S8192x64 .bf16)
    (x10 : Vec Ideal S1x64 .f32) (x17 : Vec Ideal S64x7 .f32) (x20 : Vec Ideal S1x7 .f32) (p : Fin 8192) (d : Fin 7) :
    k0_pay1 (F := Ideal) x0 x2 x6 x10 x17 x20 (ix2 p d)
      = (∑ h : Fin 64, max (((∑ k : Fin 128, x0 (ix2 p k) * x2 (ix2 k h)) + x6 (ix2 p h)) + x10 (ix2 (0 : Fin 1) h))
            (Ideal.ofBits .f32 0x00000000#32) * x17 (ix2 h d)) + x20 (ix2 (0 : Fin 1) d) := by
  unfold k0_pay1
  simp only [addf_apply, maximumf_apply, truncf_apply, extf_apply, broadcast_apply, mm1_apply, mm2_apply,
    shapeCast_self, broadcastTo_1b_ab_apply]
  rfl

end Cert.KernelIdeal.KPay
-- ==== Proof.Spec.lean ====
/-
  The per-row network both programs compute, as ONE function of the argument arrays, index by index.

  A node `r` reads row `row idx r` of the table of global features: its start index (the node's batch id with a
  negative id moved up by the table's height), read signed and clamped into the table. Its hidden unit `h` is
  `max (Σ_k a0[r,k]·a5[k,h] + Σ_k a1[row r,k]·a5[128+k,h] + a6[h]) 0`, and its output `d` is
  `Σ_h hidden[r,h]·a7[h,d] + a8[d]`. Nothing here depends on a program.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The table row node `r` reads: its start index read signed, clamped into `0 … 4095`. -/
def row (idx : IVec ⟨2, ![262144, 1]⟩ 32) (r : Fin 262144) : Fin 4096 :=
  ⟨min (idx (ix2 r (0 : Fin 1))).toInt.toNat 4095, by omega⟩

/-- Hidden unit `h` of node `r`: the two projections' sum plus the bias, clipped below at the zero pattern's value. -/
def hid (a0 : FVec Ideal ⟨2, ![262144, 128]⟩ .f32) (a1 : FVec Ideal ⟨2, ![4096, 128]⟩ .f32) (idx : IVec ⟨2, ![262144, 1]⟩ 32)
    (a5 : FVec Ideal ⟨2, ![256, 64]⟩ .f32) (a6 : FVec Ideal ⟨1, ![64]⟩ .f32) (r : Fin 262144) (h : Fin 64) : EReal :=
  max (((∑ k : Fin 128, a0 (ix2 r k) * a5 (ix2 (⟨k.val, by omega⟩ : Fin 256) h))
        + ∑ k : Fin 128, a1 (ix2 (row idx r) k) * a5 (ix2 (⟨128 + k.val, by omega⟩ : Fin 256) h))
      + a6 (ix1 h)) (Ideal.ofBits .f32 0x00000000#32)

/-- The network's output array: entry `(r, d)` is `Σ_h hid[r,h]·a7[h,d] + a8[d]`. -/
def G (a0 : FVec Ideal ⟨2, ![262144, 128]⟩ .f32) (a1 : FVec Ideal ⟨2, ![4096, 128]⟩ .f32) (idx : IVec ⟨2, ![262144, 1]⟩ 32)
    (a5 : FVec Ideal ⟨2, ![256, 64]⟩ .f32) (a6 : FVec Ideal ⟨1, ![64]⟩ .f32) (a7 : FVec Ideal ⟨2, ![64, 7]⟩ .f32)
    (a8 : FVec Ideal ⟨1, ![7]⟩ .f32) : FVec Ideal ⟨2, ![262144, 7]⟩ .f32 :=
  fun i => (∑ h : Fin 64, hid a0 a1 idx a5 a6 (i 0) h * a7 (ix2 h (i 1))) + a8 (ix1 (i 1))

theorem G_apply (a0 : FVec Ideal ⟨2, ![262144, 128]⟩ .f32) (a1 : FVec Ideal ⟨2, ![4096, 128]⟩ .f32) (idx : IVec ⟨2, ![262144, 1]⟩ 32)
    (a5 : FVec Ideal ⟨2, ![256, 64]⟩ .f32) (a6 : FVec Ideal ⟨1, ![64]⟩ .f32) (a7 : FVec Ideal ⟨2, ![64, 7]⟩ .f32)
    (a8 : FVec Ideal ⟨1, ![7]⟩ .f32) (r : Fin 262144) (d : Fin 7) :
    G a0 a1 idx a5 a6 a7 a8 (ix2 r d) = (∑ h : Fin 64, hid a0 a1 idx a5 a6 r h * a7 (ix2 h d)) + a8 (ix1 d) := rfl

end Cert.Spec

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.KBlocks.lean ====
/-
  From the kernel's blocks to its whole output array.

  The region runs over 32 grid points; point `t` reads rows `8192·t … 8192·t + 8191` of the node features and of the
  per-node projected table, the whole first-layer weights, the two biases as one-row matrices and the whole second-layer
  weights, and writes rows `8192·t … 8192·t + 8191` of the output. Each input block is read here as a closed term of the
  argument arrays at an index; the block point `t` writes back is then block `t` of the network's output array
  `Cert.Spec.G`, and since the 32 blocks tile the 262144 rows, the output array after the run IS that array.
-/
import proofs.«118497_j670014898684_2_alg».proof.Proof.Gen.KernelIdeal.Frame
import proofs.«118497_j670014898684_2_alg».proof.Proof.KV
import proofs.«118497_j670014898684_2_alg».proof.Proof.KPay
import proofs.«118497_j670014898684_2_alg».proof.Proof.Spec
import proofs.«118497_j670014898684_2_alg».proof.Proof.LibRowGather
import proofs.«118497_j670014898684_2_alg».proof.Proof.LibPlainDot
import Idealize.ShloMosaic.Lib.Pipeline.Value

set_option maxRecDepth 16384

noncomputable section

open scoped BigOperators

namespace Cert.KernelIdeal.KBlocks

open Cert.KernelIdeal Cert.KernelIdeal.Gen Cert.KernelIdeal.KV Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

/-- The network's output array of the argument arrays as launched on core `c`, the table row of a node read off the
    column of start indices the host prepares. -/
abbrev Gm (c : Dev nD) : FVec Ideal S262144x7 .f32 :=
  Cert.Spec.G (m ((c : Thread nD τ).loc main_arg0)) (m ((c : Thread nD τ).loc main_arg1))
    (idxK (m ((c : Thread nD τ).loc main_arg3))) (m ((c : Thread nD τ).loc main_arg5)) (m ((c : Thread nD τ).loc main_arg6))
    (m ((c : Thread nD τ).loc main_arg7)) (m ((c : Thread nD τ).loc main_arg8))

/-- The argument arrays as launched on core `c`, at their literal shapes. -/
abbrev A0 (c : Dev nD) : FVec Ideal S262144x128 .f32 := m ((c : Thread nD τ).loc main_arg0)
abbrev A1 (c : Dev nD) : FVec Ideal S4096x128 .f32 := m ((c : Thread nD τ).loc main_arg1)
abbrev A3 (c : Dev nD) : IVec S262144 32 := m ((c : Thread nD τ).loc main_arg3)
abbrev A5 (c : Dev nD) : FVec Ideal S256x64 .f32 := m ((c : Thread nD τ).loc main_arg5)
abbrev A6 (c : Dev nD) : FVec Ideal S64 .f32 := m ((c : Thread nD τ).loc main_arg6)
abbrev A7 (c : Dev nD) : FVec Ideal S64x7 .f32 := m ((c : Thread nD τ).loc main_arg7)
abbrev A8 (c : Dev nD) : FVec Ideal S7 .f32 := m ((c : Thread nD τ).loc main_arg8)

/-- The six input windows' blocks at point `t`, at their literal shapes. -/
abbrev B0 (c : Dev nD) (t : Fin cfg0.N) : FVec Ideal S8192x128 .f32 := iblk m c 0 t
abbrev B1 (c : Dev nD) (t : Fin cfg0.N) : FVec Ideal S8192x64 .bf16 := iblk m c 1 t
abbrev B2 (c : Dev nD) (t : Fin cfg0.N) : FVec Ideal S128x64 .f32 := iblk m c 2 t
abbrev B3 (c : Dev nD) (t : Fin cfg0.N) : FVec Ideal S1x64 .f32 := iblk m c 3 t
abbrev B4 (c : Dev nD) (t : Fin cfg0.N) : FVec Ideal S64x7 .f32 := iblk m c 4 t
abbrev B5 (c : Dev nD) (t : Fin cfg0.N) : FVec Ideal S1x7 .f32 := iblk m c 5 t

/-- The index maps over the grid: the row windows (node features, projected table, output) sit at block `t` of the rows
    at point `t`, the four whole-array windows at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The projected table at node `R`, hidden unit `h`: row `row R` of the table times column `h` of the last 128 rows of
    the weight matrix. (The narrowing is the identity; the gather of whole rows reads the clamped row; the product is
    the sum over its contracted axis; the slice reads 128 rows down.) -/
theorem globK_apply (a1 : FVec Ideal S4096x128 .f32) (a3 : IVec S262144 32) (a5 : FVec Ideal S256x64 .f32)
    (R : Fin 262144) (h : Fin 64) :
    globK a1 a3 a5 (ix2 R h)
      = ∑ k : Fin 128, a1 (ix2 (Cert.Spec.row (idxK a3) R) k) * a5 (ix2 (⟨128 + k.val, by omega⟩ : Fin 256) h) := by
  unfold globK
  refine (truncf_apply (ψ := .bf16) (φ := .f32) (s := S262144x64) _ bitsLt_bf16_f32 (ix2 R h)).trans ?_
  refine (Cert.Lib.rowGather_apply' (by decide) gather_S4096x64_S262144x1_S262144x64_1_0_n_n_0_1_164 rfl rfl rfl rfl rfl rfl rfl
    _ (idxK a3) R h).trans ?_
  refine (Cert.Lib.plain_dotGeneral_apply 4096 128 64 none a1
    (extractStridedSlice S128x64 ![128, 0] a5 slices_S256x64_S128x64_128_0) (Cert.Spec.row (idxK a3) R) h).trans ?_
  refine Finset.sum_congr rfl fun k _ => congrArg (a1 (ix2 (Cert.Spec.row (idxK a3) R) k) * ·) ?_
  refine extractStridedSlice_apply ![128, 0] a5 slices_S256x64_S128x64_128_0 (ix2 k h)
    (ix2 (⟨128 + k.val, by omega⟩ : Fin 256) h) fun a => ?_
  match a with
  | ⟨0, _⟩ => rfl
  | ⟨1, _⟩ => show h.val = 0 + h.val; omega

/-- Window 0's block at point `t`: rows `8192·t …` of the node features. -/
theorem blk0 (c : Dev nD) (t : Fin cfg0.N) (p : Fin 8192) (k : Fin 128) (R : Fin 262144) (hR : R.val = 8192 * t.val + p.val) :
    B0 m c t (ix2 p k) = A0 m c (ix2 R k) := by
  obtain ⟨e0, e1, -⟩ := idx_facts t
  show iblk m c _ t _ = _
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t 0 * 8192 + 1 * p.val = R.val; rw [e0, hR]; omega
  | ⟨1, _⟩ => show win0_0.index t 1 * 128 + 1 * k.val = k.val; rw [e1]; omega

/-- Window 1's block at point `t`: rows `8192·t …` of the projected table, each a sum over the 128 table features. -/
theorem blk1 (c : Dev nD) (t : Fin cfg0.N) (p : Fin 8192) (h : Fin 64) (R : Fin 262144) (hR : R.val = 8192 * t.val + p.val) :
    B1 m c t (ix2 p h)
      = ∑ k : Fin 128, A1 m c (ix2 (Cert.Spec.row (idxK (A3 m c)) R) k) * A5 m c (ix2 (⟨128 + k.val, by omega⟩ : Fin 256) h) := by
  obtain ⟨-, -, e0, e1, -⟩ := idx_facts t
  show iblk m c _ t _ = _
  unfold iblk
  rw [View.read_apply]
  show V m c main_v32 _ = _
  rw [V_v32]
  refine (congrArg (globK (m (c.tc.loc main_arg1)) (m (c.tc.loc main_arg3)) (m (c.tc.loc main_arg5))) ?_).trans
    (globK_apply (m (c.tc.loc main_arg1)) (m (c.tc.loc main_arg3)) (m (c.tc.loc main_arg5)) R h)
  funext a
  apply Fin.ext
  match a with
  | ⟨0, _⟩ => show win0_1.index t 0 * 8192 + 1 * p.val = R.val; rw [e0, hR]; omega
  | ⟨1, _⟩ => show win0_1.index t 1 * 64 + 1 * h.val = h.val; rw [e1]; omega

/-- Window 2's block (at every point the whole array): the first 128 rows of the weight matrix. -/
theorem blk2 (c : Dev nD) (t : Fin cfg0.N) (k : Fin 128) (h : Fin 64) :
    B2 m c t (ix2 k h) = A5 m c (ix2 (⟨k.val, by omega⟩ : Fin 256) h) := by
  obtain ⟨-, -, -, -, e0, e1, -⟩ := idx_facts t
  have hidx : ((cfg0.win 2).blk t).view.emb (ix2 k h) = (ix2 k h : S128x64.Idx) := by
    funext a
    apply Fin.ext
    match a with
    | ⟨0, _⟩ => show win0_2.index t 0 * 128 + 1 * k.val = k.val; rw [e0]; omega
    | ⟨1, _⟩ => show win0_2.index t 1 * 64 + 1 * h.val = h.val; rw [e1]; omega
  show iblk m c _ t _ = _
  unfold iblk
  rw [View.read_apply]
  show V m c main_v22 _ = _
  rw [V_v22]
  refine (congrArg (extractStridedSlice S128x64 ![0, 0] (m (c.tc.loc main_arg5)) slices_S256x64_S128x64_0_0) hidx).trans ?_
  refine extractStridedSlice_apply ![0, 0] (m (c.tc.loc main_arg5)) slices_S256x64_S128x64_0_0 (ix2 k h)
    (ix2 (⟨k.val, by omega⟩ : Fin 256) h) fun a => ?_
  match a with
  | ⟨0, _⟩ => show k.val = 0 + k.val; omega
  | ⟨1, _⟩ => show h.val = 0 + h.val; omega

/-- Window 3's block: the hidden bias as a one-row matrix. -/
theorem blk3 (c : Dev nD) (t : Fin cfg0.N) (h : Fin 64) :
    B3 m c t (ix2 (0 : Fin 1) h) = A6 m c (ix1 h) := by
  obtain ⟨-, -, -, -, -, -, e0, e1, -⟩ := idx_facts t
  have hidx : ((cfg0.win 3).blk t).view.emb (ix2 (0 : Fin 1) h) = (ix2 (0 : Fin 1) h : S1x64.Idx) := by
    funext a
    apply Fin.ext
    match a with
    | ⟨0, _⟩ => show win0_3.index t 0 * 1 + 1 * (0 : Fin 1).val = (0 : Fin 1).val; rw [e0]; omega
    | ⟨1, _⟩ => show win0_3.index t 1 * 64 + 1 * h.val = h.val; rw [e1]; omega
  show iblk m c _ t _ = _
  unfold iblk
  rw [View.read_apply]
  show V m c main_v33 _ = _
  rw [V_v33]
  refine (congrArg (shapeCast S1x64 (m (c.tc.loc main_arg6)) shapeCasts_S64_S1x64) hidx).trans ?_
  refine shapeCast_apply (m (c.tc.loc main_arg6)) shapeCasts_S64_S1x64 (ix2 (0 : Fin 1) h) (ix1 h) ?_
  refine (Shape.rowMajor_val_one (d := ![64]) (ix1 h)).trans ?_
  refine Eq.trans ?_ (Shape.rowMajor_val_two (d := ![1, 64]) (ix2 (0 : Fin 1) h)).symm
  show h.val = 0 * 64 + h.val
  omega

/-- Window 4's block: the second weight matrix. -/
theorem blk4 (c : Dev nD) (t : Fin cfg0.N) (h : Fin 64) (d : Fin 7) :
    B4 m c t (ix2 h d) = A7 m c (ix2 h d) := by
  obtain ⟨-, -, -, -, -, -, -, -, e0, e1, -⟩ := idx_facts t
  show iblk m c _ t _ = _
  unfold iblk
  rw [View.read_apply]
  show V m c main_arg7 _ = m (c.tc.loc main_arg7) _
  rw [V_main_arg7]
  refine congrArg (m (c.tc.loc main_arg7)) ?_
  funext a
  apply Fin.ext
  match a with
  | ⟨0, _⟩ => show win0_4.index t 0 * 64 + 1 * h.val = h.val; rw [e0]; omega
  | ⟨1, _⟩ => show win0_4.index t 1 * 7 + 1 * d.val = d.val; rw [e1]; omega

/-- Window 5's block: the output bias as a one-row matrix. -/
theorem blk5 (c : Dev nD) (t : Fin cfg0.N) (d : Fin 7) :
    B5 m c t (ix2 (0 : Fin 1) d) = A8 m c (ix1 d) := by
  obtain ⟨-, -, -, -, -, -, -, -, -, -, e0, e1, -⟩ := idx_facts t
  have hidx : ((cfg0.win 5).blk t).view.emb (ix2 (0 : Fin 1) d) = (ix2 (0 : Fin 1) d : S1x7.Idx) := by
    funext a
    apply Fin.ext
    match a with
    | ⟨0, _⟩ => show win0_5.index t 0 * 1 + 1 * (0 : Fin 1).val = (0 : Fin 1).val; rw [e0]; omega
    | ⟨1, _⟩ => show win0_5.index t 1 * 7 + 1 * d.val = d.val; rw [e1]; omega
  show iblk m c _ t _ = _
  unfold iblk
  rw [View.read_apply]
  show V m c main_v34 _ = _
  rw [V_v34]
  refine (congrArg (shapeCast S1x7 (m (c.tc.loc main_arg8)) shapeCasts_S7_S1x7) hidx).trans ?_
  refine shapeCast_apply (m (c.tc.loc main_arg8)) shapeCasts_S7_S1x7 (ix2 (0 : Fin 1) d) (ix1 d) ?_
  refine (Shape.rowMajor_val_one (d := ![7]) (ix1 d)).trans ?_
  refine Eq.trans ?_ (Shape.rowMajor_val_two (d := ![1, 7]) (ix2 (0 : Fin 1) d)).symm
  show d.val = 0 * 7 + d.val
  omega

theorem hz : (![0, 0] : Fin 2 → Nat) = fun _ => 0 := funext fun a => by fin_cases a <;> rfl

/-- WHAT POINT `t` WRITES BACK is block `t` of the network's output array: the body's stored value at `(p, d)` is the
    two-layer value of the six blocks, and each block read is the corresponding read of the argument arrays at row
    `8192·t + p`. -/
theorem flushed_eq (c : Dev nD) (t : Fin cfg0.N) :
    (dats m 0 c).flushed 6 t = ((cfg0.win 6).blk t).view.read (Elt Ideal) (Gm m c) := by
  show (cfg0.win 6).cut (grid0.coords t) ((dats m 0 c).after 6 t) = _
  rw [after0_6]
  unfold out0_6
  rw [View.canon_unit_zero hz]
  simp only [View.ld_unit_zero (S := S8192x128) hz, View.ld_unit_zero (S := S128x64) hz, View.ld_unit_zero (S := S8192x64) hz,
    View.ld_unit_zero (S := S1x64) hz, View.ld_unit_zero (S := S64x7) hz, View.ld_unit_zero (S := S1x7) hz]
  obtain ⟨-, -, -, -, -, -, -, -, -, -, -, -, e0, e1⟩ := idx_facts t
  have hN : cfg0.N = 32 := N_0
  funext j
  obtain ⟨p, d, rfl⟩ : ∃ (p : Fin 8192) (d : Fin 7), j = ix2 p d := ⟨j 0, j 1, eq_ix2 j⟩
  have hR : 8192 * t.val + p.val < 262144 := by have := t.isLt; have := p.isLt; omega
  show k0_pay1 (B0 m c t) (B2 m c t) (B1 m c t) (B3 m c t) (B4 m c t) (B5 m c t) (ix2 p d)
    = Gm m c (((cfg0.win 6).blk t).view.emb (ix2 p d))
  have hemb : ((cfg0.win 6).blk t).view.emb (ix2 p d) = (ix2 (⟨8192 * t.val + p.val, hR⟩ : Fin 262144) d : S262144x7.Idx) := by
    funext a
    apply Fin.ext
    match a with
    | ⟨0, _⟩ => show win0_6.index t 0 * 8192 + 1 * p.val = 8192 * t.val + p.val; rw [e0]; omega
    | ⟨1, _⟩ => show win0_6.index t 1 * 7 + 1 * d.val = d.val; rw [e1]; omega
  refine Eq.trans ?_ (congrArg (Gm m c) hemb).symm
  refine (KPay.pay_apply (B0 m c t) (B2 m c t) (B1 m c t) (B3 m c t) (B4 m c t) (B5 m c t) p d).trans ?_
  refine Eq.trans ?_ (Cert.Spec.G_apply (A0 m c) (A1 m c) (idxK (A3 m c)) (A5 m c) (A6 m c) (A7 m c) (A8 m c)
    (⟨8192 * t.val + p.val, hR⟩ : Fin 262144) d).symm
  unfold Cert.Spec.hid
  exact congrArg₂ (· + ·) (Finset.sum_congr rfl fun h _ => congrArg₂ (· * ·) (congrArg₂ max (congrArg₂ (· + ·)
    (congrArg₂ (· + ·) (Finset.sum_congr rfl fun k _ => congrArg₂ (· * ·) (blk0 m c t p k ⟨8192 * t.val + p.val, hR⟩ rfl) (blk2 m c t k h))
      (blk1 m c t p h ⟨8192 * t.val + p.val, hR⟩ rfl)) (blk3 m c t h)) rfl) (blk4 m c t h d)) (blk5 m c t d)

/-- An index of the output array is in point `t`'s block iff each coordinate is in the block's range on its axis. -/
theorem mem_blk (t : Fin cfg0.N) (i : S262144x7.Idx) :
    i ∈ ((cfg0.win 6).blk t).view.set ↔ ∀ a : Fin 2, win0_6.index t a * S8192x7.size a ≤ (i a).val
      ∧ (i a).val < win0_6.index t a * S8192x7.size a + S8192x7.size a := by
  show i ∈ ((View.whole main_v35).slice (win0_6.rect t)).set ↔ _
  rw [View.set_slice_whole, Rect.mem_set_unit]
  exact Iff.rfl

/-- The 32 blocks of 8192 rows tile the 262144 rows: row `r` is in the block of point `r / 8192`. -/
theorem cover (i : S262144x7.Idx) : ∃ t : Fin cfg0.N, (cfg0.win 6).flush t = true ∧ i ∈ ((cfg0.win 6).blk t).view.set := by
  have hN : cfg0.N = 32 := N_0
  have hi0 : (i 0).val < 262144 := (i 0).isLt
  have hi1 : (i 1).val < 7 := (i 1).isLt
  obtain ⟨t, ht⟩ : ∃ t : Fin cfg0.N, t.val = (i 0).val / 8192 := ⟨⟨(i 0).val / 8192, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t 0 * 8192 ≤ (i 0).val ∧ (i 0).val < win0_6.index t 0 * 8192 + 8192
    rw [e0, ht]; omega
  | ⟨1, _⟩ =>
    show win0_6.index t 1 * 7 ≤ (i 1).val ∧ (i 1).val < win0_6.index t 1 * 7 + 7
    rw [e1]; omega

/-- THE OUTPUT ARRAY after the run is the network's output array of the argument arrays. -/
theorem final (c : Dev nD) : (dats m 0 c).arrAt 6 cfg0.N = Gm m c :=
  (dats m 0 c).arrAt_eq_of_cover 6 (Gm m c) (fun t _ => flushed_eq m c t) cover

end Cert.KernelIdeal.KBlocks
-- ==== Proof.KIdx1.lean ====
/-
  The rank of a node among the selected nodes of its batch, as the region finds it: the running count of selected
  nodes, minus one, minus the count of selected nodes in earlier batches, read off the host lines before the region.
-/
import proofs.«118497_j670014898684_2_alg».proof.Proof.KV

set_option maxRecDepth 16384

noncomputable section

namespace Cert.KernelIdeal.KIdx1

open Cert.KernelIdeal Cert.KernelIdeal.Gen Cert.KernelIdeal.KV Idealize.ShloMosaic Idealize.ShloMosaic.TcCoe Idealize.SL.Sem Idealize.ShloMosaic.StableHlo

variable (m : (ℓ : Loc nD τ sig) → Buf (Elt Ideal) ℓ)

/-- What the host left in the buffer of the group ranks when the region starts. -/
theorem V_v18 (c : Dev nD) : (V m c main_v18 : S262144.Idx → BitVec 32) =
    gidx (m ((c : Thread nD τ).loc main_arg2)) (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [cast_eq]
  rfl

end Cert.KernelIdeal.KIdx1

end
-- ==== Proof.KIdx2.lean ====
/-
  Which nodes are written to the table, as the region finds it: a node is selected and its rank within its batch is
  below eight.
-/
import proofs.«118497_j670014898684_2_alg».proof.Proof.KV

set_option maxRecDepth 16384

noncomputable section

namespace Cert.KernelIdeal.KIdx2

open Cert.KernelIdeal Cert.KernelIdeal.Gen Cert.KernelIdeal.KV Idealize.ShloMosaic Idealize.ShloMosaic.TcCoe Idealize.SL.Sem Idealize.ShloMosaic.StableHlo

variable (m : (ℓ : Loc nD τ sig) → Buf (Elt Ideal) ℓ)

/-- What the host left in the buffer of the validity bits when the region starts. -/
theorem V_v21 (c : Dev nD) : (V m c main_v21 : S262144.Idx → BitVec 1) =
    valid (m ((c : Thread nD τ).loc main_arg2)) (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [cast_eq]
  rfl

end Cert.KernelIdeal.KIdx2

end
-- ==== Proof.KTail.lean ====
/-
  The host lines after the region: the network's output rows are scattered into a padded table of eight group slots
  and a spare ninth per batch, over a fill value; the spare slot is cut off, the entries the mask excludes are filled,
  and the last two axes are merged. The lines are read in two stretches: up to the two columns of scatter coordinates,
  and from their juxtaposition on.
-/
import proofs.«118497_j670014898684_2_alg».proof.Proof.KV

set_option maxRecDepth 16384

noncomputable section

namespace Cert.KernelIdeal.KTail

open Cert.KernelIdeal Cert.KernelIdeal.Gen Cert.KernelIdeal.KV Idealize.ShloMosaic Idealize.ShloMosaic.TcCoe Idealize.SL.Sem Idealize.ShloMosaic.StableHlo

variable (m : (ℓ : Loc nD τ sig) → Buf (Elt Ideal) ℓ)

/-- An index with a negative value moved up by `n`. -/
def wrapIdx (x : IVec S262144 32) (n : BitVec 32) : IVec S262144 32 :=
  select (cmpi .slt x (broadcastInDim S262144 ![] bcast_S_S262144 (constantI S_ 32 0#32)))
    (addi x (broadcastInDim S262144 ![] bcast_S_S262144 (constantI S_ 32 n))) x

/-- The table row a node is written to: its batch id when valid, row zero otherwise. -/
def bS (v21 : IVec S262144 1) (a3 : IVec S262144 32) : IVec S262144 32 :=
  select v21 a3 (broadcastInDim S262144 ![] bcast_S_S262144 (id (constantI S_ 32 0#32)))

/-- The group slot a node is written to: its rank when valid, the spare ninth slot otherwise. -/
def gS (v21 : IVec S262144 1) (v18 : IVec S262144 32) : IVec S262144 32 :=
  select v21 v18 (broadcastInDim S262144 ![] bcast_S_S262144 (id (constantI S_ 32 8#32)))

/-- The two scatter coordinates of every node, side by side. -/
def sIdx (v21 : IVec S262144 1) (v18 a3 : IVec S262144 32) : IVec S262144x2 32 :=
  concatenate S262144x2 1
    [⟨S262144x1, (broadcastInDim S262144x1 ![0] bcast_S262144_S262144x1_0 (wrapIdx (bS v21 a3) 4096#32) : IVec S262144x1 32)⟩,
     ⟨S262144x1, (broadcastInDim S262144x1 ![0] bcast_S262144_S262144x1_0 (wrapIdx (gS v21 v18) 9#32) : IVec S262144x1 32)⟩]
    concatenates_S262144x1_S262144x1_S262144x2_d1

/-- The fill value of the table and of the masked entries. -/
def negC : FVec Ideal S_ .f32 := constant (F := Ideal) S_ .f32 0xCE6E6B28#32

/-- The result from the network's output array: the rows scattered into the padded table over the fill value, the spare
    slot cut off, the masked entries filled, the last two axes merged. -/
def tail' (out : FVec Ideal S262144x7 .f32) (v21 : IVec S262144 1) (v18 a3 : IVec S262144 32) (a4 : IVec S4096x8x7 1) :
    FVec Ideal S4096x56 .f32 :=
  shapeCast S4096x56
    (select a4
      (extractStridedSlice S4096x8x7 ![0, 0, 0]
        (Host.scatter scatter_S4096x9x7_S262144x2_S262144x7_1_01_01_1 (fun _ b => b)
          (broadcastInDim S4096x9x7 ![] bcast_S_S4096x9x7 negC) (sIdx v21 v18 a3) out)
        slices_S4096x9x7_S4096x8x7_0_0_0)
      (broadcastInDim S4096x8x7 ![] bcast_S_S4096x8x7 negC))
    shapeCasts_S4096x8x7_S4096x56

/-- Contents after two stretches of operations are the second stretch's over the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The first sixteen of the twenty lines between the two selects and the mask: the wrapped coordinates as columns. -/
abbrev opsP4 : List (HloOp τ sig (Elt Ideal)) :=
  [ StableHlo.nullary main_c_9 (constantI S_ 32 0#32),
    StableHlo.unary main_c_9 main_v39 (broadcastInDim S262144 ![] bcast_S_S262144 : (⟨S_, .i32⟩ : BufTy).Contents (Elt Ideal) → (⟨S262144, .i32⟩ : BufTy).Contents (Elt Ideal)),
    StableHlo.binary main_v37 main_v39 main_v40 (cmpi .slt : (⟨S262144, .i32⟩ : BufTy).Contents (Elt Ideal) → (⟨S262144, .i32⟩ : BufTy).Contents (Elt Ideal) → (⟨S262144, .i1⟩ : BufTy).Contents (Elt Ideal)),
    StableHlo.nullary main_c_10 (constantI S_ 32 4096#32),
    StableHlo.unary main_c_10 main_v41 (broadcastInDim S262144 ![] bcast_S_S262144 : (⟨S_, .i32⟩ : BufTy).Contents (Elt Ideal) → (⟨S262144, .i32⟩ : BufTy).Contents (Elt Ideal)),
    StableHlo.binary main_v37 main_v41 main_v42 (addi : (⟨S262144, .i32⟩ : BufTy).Contents (Elt Ideal) → (⟨S262144, .i32⟩ : BufTy).Contents (Elt Ideal) → (⟨S262144, .i32⟩ : BufTy).Contents (Elt Ideal)),
    StableHlo.ternary main_v40 main_v42 main_v37 main_v43 (select : (⟨S262144, .i1⟩ : BufTy).Contents (Elt Ideal) → (⟨S262144, .i32⟩ : BufTy).Contents (Elt Ideal) → (⟨S262144, .i32⟩ : BufTy).Contents (Elt Ideal) → (⟨S262144, .i32⟩ : BufTy).Contents (Elt Ideal)),
    StableHlo.nullary main_c_11 (constantI S_ 32 0#32),
    StableHlo.unary main_c_11 main_v44 (broadcastInDim S262144 ![] bcast_S_S262144 : (⟨S_, .i32⟩ : BufTy).Contents (Elt Ideal) → (⟨S262144, .i32⟩ : BufTy).Contents (Elt Ideal)),
    StableHlo.binary main_v38 main_v44 main_v45 (cmpi .slt : (⟨S262144, .i32⟩ : BufTy).Contents (Elt Ideal) → (⟨S262144, .i32⟩ : BufTy).Contents (Elt Ideal) → (⟨S262144, .i1⟩ : BufTy).Contents (Elt Ideal)),
    StableHlo.nullary main_c_12 (constantI S_ 32 9#32),
    StableHlo.unary main_c_12 main_v46 (broadcastInDim S262144 ![] bcast_S_S262144 : (⟨S_, .i32⟩ : BufTy).Contents (Elt Ideal) → (⟨S262144, .i32⟩ : BufTy).Contents (Elt Ideal)),
    StableHlo.binary main_v38 main_v46 main_v47 (addi : (⟨S262144, .i32⟩ : BufTy).Contents (Elt Ideal) → (⟨S262144, .i32⟩ : BufTy).Contents (Elt Ideal) → (⟨S262144, .i32⟩ : BufTy).Contents (Elt Ideal)),
    StableHlo.ternary main_v45 main_v47 main_v38 main_v48 (select : (⟨S262144, .i1⟩ : BufTy).Contents (Elt Ideal) → (⟨S262144, .i32⟩ : BufTy).Contents (Elt Ideal) → (⟨S262144, .i32⟩ : BufTy).Contents (Elt Ideal) → (⟨S262144, .i32⟩ : BufTy).Contents (Elt Ideal)),
    StableHlo.unary main_v43 main_v49 (broadcastInDim S262144x1 ![0] bcast_S262144_S262144x1_0 : (⟨S262144, .i32⟩ : BufTy).Contents (Elt Ideal) → (⟨S262144x1, .i32⟩ : BufTy).Contents (Elt Ideal)),
    StableHlo.unary main_v48 main_v50 (broadcastInDim S262144x1 ![0] bcast_S262144_S262144x1_0 : (⟨S262144, .i32⟩ : BufTy).Contents (Elt Ideal) → (⟨S262144x1, .i32⟩ : BufTy).Contents (Elt Ideal)) ]

/-- The last four: the columns side by side, the scatter, the cut, the fill constant. -/
abbrev opsS4 : List (HloOp τ sig (Elt Ideal)) :=
  [ StableHlo.binary main_v49 main_v50 main_v51 ((fun a b => concatenate S262144x2 1 [⟨S262144x1, a⟩, ⟨S262144x1, b⟩] concatenates_S262144x1_S262144x1_S262144x2_d1) : (⟨S262144x1, .i32⟩ : BufTy).Contents (Elt Ideal) → (⟨S262144x1, .i32⟩ : BufTy).Contents (Elt Ideal) → (⟨S262144x2, .i32⟩ : BufTy).Contents (Elt Ideal)),
    StableHlo.ternary main_v36 main_v51 main_v35 main_v52 ((fun x i u => Host.scatter scatter_S4096x9x7_S262144x2_S262144x7_1_01_01_1 (fun _ b => b) x i u) : (⟨S4096x9x7, .f32⟩ : BufTy).Contents (Elt Ideal) → (⟨S262144x2, .i32⟩ : BufTy).Contents (Elt Ideal) → (⟨S262144x7, .f32⟩ : BufTy).Contents (Elt Ideal) → (⟨S4096x9x7, .f32⟩ : BufTy).Contents (Elt Ideal)),
    StableHlo.unary main_v52 main_v53 ((extractStridedSlice S4096x8x7 ![0, 0, 0] · slices_S4096x9x7_S4096x8x7_0_0_0) : (⟨S4096x9x7, .f32⟩ : BufTy).Contents (Elt Ideal) → (⟨S4096x8x7, .f32⟩ : BufTy).Contents (Elt Ideal)),
    StableHlo.nullary main_cst_13 (constant (F := Ideal) S_ .f32 0xCE6E6B28#32) ]

theorem ops4_split : (hostOps1_4 : List (HloOp τ sig (Elt Ideal))) = opsP4 ++ opsS4 := rfl

/-- The first stretch: everything before the columns are put side by side. -/
abbrev stretchP : List (HloOp τ sig (Elt Ideal)) := hostOps1 ++ (hostOps1_1 ++ (hostOps1_2 ++ (hostOps1_3 ++ opsP4)))

/-- The second stretch. -/
abbrev stretchS : List (HloOp τ sig (Elt Ideal)) := opsS4 ++ (hostOps1_5 ++ hostOps1_6)

theorem flatten_split : List.flatten [hostOps1, hostOps1_1, hostOps1_2, hostOps1_3, hostOps1_4, hostOps1_5, hostOps1_6]
    = (stretchP ++ stretchS : List (HloOp τ sig (Elt Ideal))) := by
  simp only [List.flatten_cons, List.flatten_nil, List.append_nil, ops4_split, List.append_assoc]

/-- The masking lines with each value at its own buffer's type. -/
theorem ops5_eq : (hostOps1_5 : List (HloOp τ sig (Elt Ideal))) =
    [ StableHlo.unary main_cst_13 main_call4_v0 (broadcastInDim S4096x8x7 ![] bcast_S_S4096x8x7 : (⟨S_, .f32⟩ : BufTy).Contents (Elt Ideal) → (⟨S4096x8x7, .f32⟩ : BufTy).Contents (Elt Ideal)),
      StableHlo.ternary main_arg4 main_v53 main_call4_v0 main_v54 (select : (⟨S4096x8x7, .i1⟩ : BufTy).Contents (Elt Ideal) → (⟨S4096x8x7, .f32⟩ : BufTy).Contents (Elt Ideal) → (⟨S4096x8x7, .f32⟩ : BufTy).Contents (Elt Ideal) → (⟨S4096x8x7, .f32⟩ : BufTy).Contents (Elt Ideal)) ] := rfl

macro "stretch_p" : tactic =>
  `(tactic| (simp only [stretchP, hostOps1, hostOps1_1, hostOps1_2, hostOps1_3, opsP4, List.cons_append, List.nil_append]
             after_results_simp))

variable (W : Valuation τ sig (Elt Ideal))

theorem P_v49 : (after stretchP W (Proc.devRef .tc main_v49) : S262144x1.Idx → BitVec 32) =
    broadcastInDim S262144x1 ![0] bcast_S262144_S262144x1_0 (wrapIdx (bS (W (Proc.devRef .tc main_v21)) (W (Proc.devRef .tc main_arg3))) 4096#32) := by
  stretch_p
  simp only [cast_eq]
  rfl

theorem P_v50 : (after stretchP W (Proc.devRef .tc main_v50) : S262144x1.Idx → BitVec 32) =
    broadcastInDim S262144x1 ![0] bcast_S262144_S262144x1_0 (wrapIdx (gS (W (Proc.devRef .tc main_v21)) (W (Proc.devRef .tc main_v18))) 9#32) := by
  stretch_p
  simp only [cast_eq]
  rfl

theorem P_v36 : (after stretchP W (Proc.devRef .tc main_v36) : S4096x9x7.Idx → EReal) =
    broadcastInDim S4096x9x7 ![] bcast_S_S4096x9x7 negC := by
  stretch_p
  rfl

theorem P_v35 : after stretchP W (Proc.devRef .tc main_v35) = W (Proc.devRef .tc main_v35) := by
  stretch_p

theorem P_arg4 : after stretchP W (Proc.devRef .tc main_arg4) = W (Proc.devRef .tc main_arg4) := by
  stretch_p

attribute [local irreducible] Host.scatter concatenate extractStridedSlice broadcastInDim in
/-- The host lines after the region, folded over any contents `W` of the buffers: the result buffer ends at `tail'` of what
    `W` holds in the network's output array, the validity bits, the ranks, the batch ids and the mask. -/
theorem tail_fold :
    (after (List.flatten [hostOps1, hostOps1_1, hostOps1_2, hostOps1_3, hostOps1_4, hostOps1_5, hostOps1_6]) W (Proc.devRef .tc main_v55)
      : S4096x56.Idx → EReal)
      = tail' (W (Proc.devRef .tc main_v35)) (W (Proc.devRef .tc main_v21)) (W (Proc.devRef .tc main_v18))
          (W (Proc.devRef .tc main_arg3)) (W (Proc.devRef .tc main_arg4)) := by
  rw [flatten_split, after_append]
  have e49 := P_v49 W
  have e50 := P_v50 W
  have e36 := P_v36 W
  have e35 := P_v35 W
  have e4 := P_arg4 W
  generalize after stretchP W = W1 at e49 e50 e36 e35 e4 ⊢
  simp only [stretchS, opsS4, ops5_eq, hostOps1_6, List.cons_append, List.nil_append]
  after_results_simp
  rw [e49, e50, e36, e35, e4]
  rfl

end Cert.KernelIdeal.KTail

end
-- ==== Proof.KRun.lean ====
/-
  The idealized kernel program's run, read: every weakly fair execution ends with the result buffer at the padded,
  masked table of the network's output — the shared specification `Cert.Spec.G` of the argument arrays, by the blocks the
  thirty-two grid points write back —, the ragged index computed from the selection bits and the batch ids, and the
  arguments unchanged.
-/
import proofs.«118497_j670014898684_2_alg».proof.Proof.KBlocks
import proofs.«118497_j670014898684_2_alg».proof.Proof.KIdx1
import proofs.«118497_j670014898684_2_alg».proof.Proof.KIdx2
import proofs.«118497_j670014898684_2_alg».proof.Proof.KTail

set_option maxRecDepth 16384

noncomputable section

namespace Cert.KernelIdeal.KRun

open Cert.KernelIdeal Cert.KernelIdeal.Gen Cert.KernelIdeal.KV Cert.KernelIdeal.KTail Cert.KernelIdeal.KBlocks
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The whole result from the network's output array and the three arguments the host lines read: the validity bits and
    the ranks are those of the ragged index. -/
def tailK (out : FVec Ideal S262144x7 .f32) (a2 : IVec S262144 1) (a3 : IVec S262144 32) (a4 : IVec S4096x8x7 1) :
    FVec Ideal S4096x56 .f32 :=
  tail' out (valid a2 a3) (gidx a2 a3) a3 a4

/-- The result buffer after the host lines that follow the region. -/
theorem res_eq (c : Dev nD) :
    (Pipeline.afterTail₀ cfgs (dats m) 0 (V0 m) [hostOps1, hostOps1_1, hostOps1_2, hostOps1_3, hostOps1_4, hostOps1_5, hostOps1_6] c main_v55
      : S4096x56.Idx → EReal)
      = tailK (Gm m c) (m ((c : Thread nD τ).loc main_arg2)) (m ((c : Thread nD τ).loc main_arg3)) (m ((c : Thread nD τ).loc main_arg4)) := by
  unfold Pipeline.afterTail₀
  refine (tail_fold _).trans ?_
  rw [Pipeline.withArrays_of_ne _ c (V0 m c) _ main_v21 (by exact (by decide : ∀ w, Pipeline.arrRef spec0 w ≠ main_v21)),
    Pipeline.withArrays_of_ne _ c (V0 m c) _ main_v18 (by exact (by decide : ∀ w, Pipeline.arrRef spec0 w ≠ main_v18)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4))]
  have h35 := Pipeline.withArrays_arr (τ := τ) spec0 launch0.win.arr_inj c (V0 m c) (fun w => (dats m 0 c).arrAt w (cfgs 0).N) 6
  rw [show Pipeline.withArrays (cfgs 0).spec c (V0 m c) (fun w => (dats m 0 c).arrAt w (cfgs 0).N) (Proc.devRef .tc main_v35)
      = (dats m 0 c).arrAt 6 (cfgs 0).N from h35]
  show tail' ((dats m 0 c).arrAt 6 cfg0.N) (V m c main_v21) (V m c main_v18) (V m c main_arg3) (V m c main_arg4) = _
  rw [final, KIdx2.V_v21, KIdx1.V_v18, V_main_arg3, V_main_arg4]
  rfl

/-- THE RUN: the result buffer at the table of the specification's output, the arguments unchanged. -/
theorem run : θ_run (defs (F := Ideal)) (onTc (τ := τ) (main (F := Ideal))) ⟨m, fun _ => 0, ρ⟩ fun r => ∀ c : Dev nD,
      r.2.mem ((c.tc : Thread nD τ).loc main_v55)
        = tailK (Gm m c) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v55 (Pipeline.mem_restRefs_of main_v55 (by decide) (by decide))).trans (res_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c))⟩)
    (run_main m ρ)

end Cert.KernelIdeal.KRun

end
-- ==== Proof.RefRun.lean ====
/-
  The reference program's run. Its @main is a straight line of host tensor operations once the outlined
  functions (the two running sums, the clip at zero, the three selects) are unfolded at their calls and
  the two windows of statements are run one after the other: `ops` lists the eighty-nine operations in
  order, each over its own buffers, `main_eq` is that unfolding, and `run_main` reads the run back:
  every weakly fair execution terminates with each buffer at the operations' fold over the launch
  contents.
-/
import proofs.«118497_j670014898684_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's operations in order, the calls unfolded: a running sum is three (the zero, its rank-zero
    broadcast, the windowed sum), the clip at zero three (the zero, its broadcast, the maximum), a select
    against a scalar three (the scalar converted to its own type, broadcast, the select) or two. -/
abbrev ops : List (HloOp τ sig (Elt F)) :=
  ( StableHlo.unary main_arg2 main_v0 ((extui 32 · natLt_1_32) : (⟨S262144, .i1⟩ : BufTy).Contents (Elt F) → (⟨S262144, .i32⟩ : BufTy).Contents (Elt F))
  :: StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v0 : StableHlo.TRef sig ⟨S_, .i32⟩) (broadcastInDim S_ ![] bcast_S_S_)
  :: StableHlo.TRef.binary (.of main_v0 : StableHlo.TRef sig ⟨S262144, .i32⟩) (.of main_call0_call0_v0 : StableHlo.TRef sig ⟨S_, .i32⟩) (.of main_v1 : StableHlo.TRef sig ⟨S262144, .i32⟩) (fun x v => Host.reduceWindow IntOp.addi ![262144] ![1] ![262143] ![0] x v reduceWindows_S262144_S262144_w262144s1p262143_0 h_S_)
  :: StableHlo.nullary main_c (constantI S_ 32 0#32)
  :: StableHlo.unary main_c main_v2 (broadcastInDim S4096 ![] bcast_S_S4096 : (⟨S_, .i32⟩ : BufTy).Contents (Elt F) → (⟨S4096, .i32⟩ : BufTy).Contents (Elt F))
  :: StableHlo.unary main_arg3 main_v3 (broadcastInDim S262144x1 ![0] bcast_S262144_S262144x1_0 : (⟨S262144, .i32⟩ : BufTy).Contents (Elt F) → (⟨S262144x1, .i32⟩ : BufTy).Contents (Elt F))
  :: StableHlo.ternary main_v2 main_v3 main_v0 main_v4 ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F))
  :: StableHlo.nullary main_c_0 (constantI S_ 32 0#32)
  :: StableHlo.unary main_c_0 main_v5 (broadcastInDim S1 ![] bcast_S_S1 : (⟨S_, .i32⟩ : BufTy).Contents (Elt F) → (⟨S1, .i32⟩ : BufTy).Contents (Elt F))
  :: StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v4 : StableHlo.TRef sig ⟨S4096, .i32⟩) (.of main_call1_call0_v0 : StableHlo.TRef sig ⟨S_, .i32⟩) (.of main_v6 : StableHlo.TRef sig ⟨S4096, .i32⟩) (fun x v => Host.reduceWindow IntOp.addi ![4096] ![1] ![4095] ![0] x v reduceWindows_S4096_S4096_w4096s1p4095_0 h_S_)
  :: StableHlo.unary main_v6 main_v7 ((extractStridedSlice S4095 ![0] · slices_S4096_S4095_0) : (⟨S4096, .i32⟩ : BufTy).Contents (Elt F) → (⟨S4095, .i32⟩ : BufTy).Contents (Elt F))
  :: StableHlo.binary main_v5 main_v7 main_v8 ((fun a b => concatenate S4096 0 [⟨S1, a⟩, ⟨S4095, b⟩] concatenates_S1_S4095_S4096_d0) : (⟨S1, .i32⟩ : BufTy).Contents (Elt F) → (⟨S4095, .i32⟩ : BufTy).Contents (Elt F) → (⟨S4096, .i32⟩ : BufTy).Contents (Elt F))
  :: StableHlo.nullary main_c_1 (constantI S_ 32 1#32)
  :: StableHlo.unary main_c_1 main_v9 (broadcastInDim S262144 ![] bcast_S_S262144 : (⟨S_, .i32⟩ : BufTy).Contents (Elt F) → (⟨S262144, .i32⟩ : BufTy).Contents (Elt F))
  :: StableHlo.binary main_v1 main_v9 main_v10 (subi : (⟨S262144, .i32⟩ : BufTy).Contents (Elt F) → (⟨S262144, .i32⟩ : BufTy).Contents (Elt F) → (⟨S262144, .i32⟩ : BufTy).Contents (Elt F))
  :: StableHlo.nullary main_c_2 (constantI S_ 32 0#32)
  :: StableHlo.unary main_c_2 main_v11 (broadcastInDim S262144 ![] bcast_S_S262144 : (⟨S_, .i32⟩ : BufTy).Contents (Elt F) → (⟨S262144, .i32⟩ : BufTy).Contents (Elt F))
  :: StableHlo.binary main_arg3 main_v11 main_v12 (cmpi .slt : (⟨S262144, .i32⟩ : BufTy).Contents (Elt F) → (⟨S262144, .i32⟩ : BufTy).Contents (Elt F) → (⟨S262144, .i1⟩ : BufTy).Contents (Elt F))
  :: StableHlo.nullary main_c_3 (constantI S_ 32 4096#32)
  :: StableHlo.unary main_c_3 main_v13 (broadcastInDim S262144 ![] bcast_S_S262144 : (⟨S_, .i32⟩ : BufTy).Contents (Elt F) → (⟨S262144, .i32⟩ : BufTy).Contents (Elt F))
  :: StableHlo.binary main_arg3 main_v13 main_v14 (addi : (⟨S262144, .i32⟩ : BufTy).Contents (Elt F) → (⟨S262144, .i32⟩ : BufTy).Contents (Elt F) → (⟨S262144, .i32⟩ : BufTy).Contents (Elt F))
  :: StableHlo.ternary main_v12 main_v14 main_arg3 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v15 main_v16 (broadcastInDim S262144x1 ![0] bcast_S262144_S262144x1_0 : (⟨S262144, .i32⟩ : BufTy).Contents (Elt F) → (⟨S262144x1, .i32⟩ : BufTy).Contents (Elt F))
  :: StableHlo.binary main_v8 main_v16 main_v17 ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F))
  :: StableHlo.binary main_v10 main_v17 main_v18 (subi : (⟨S262144, .i32⟩ : BufTy).Contents (Elt F) → (⟨S262144, .i32⟩ : BufTy).Contents (Elt F) → (⟨S262144, .i32⟩ : BufTy).Contents (Elt F))
  :: StableHlo.nullary main_c_4 (constantI S_ 32 8#32)
  :: StableHlo.unary main_c_4 main_v19 (broadcastInDim S262144 ![] bcast_S_S262144 : (⟨S_, .i32⟩ : BufTy).Contents (Elt F) → (⟨S262144, .i32⟩ : BufTy).Contents (Elt F))
  :: StableHlo.binary main_v18 main_v19 main_v20 (cmpi .slt : (⟨S262144, .i32⟩ : BufTy).Contents (Elt F) → (⟨S262144, .i32⟩ : BufTy).Contents (Elt F) → (⟨S262144, .i1⟩ : BufTy).Contents (Elt F))
  :: StableHlo.binary main_arg2 main_v20 main_v21 (andi : (⟨S262144, .i1⟩ : BufTy).Contents (Elt F) → (⟨S262144, .i1⟩ : BufTy).Contents (Elt F) → (⟨S262144, .i1⟩ : BufTy).Contents (Elt F))
  :: StableHlo.nullary main_c_5 (constantI S_ 32 0#32)
  :: StableHlo.unary main_c_5 main_v22 (broadcastInDim S262144 ![] bcast_S_S262144 : (⟨S_, .i32⟩ : BufTy).Contents (Elt F) → (⟨S262144, .i32⟩ : BufTy).Contents (Elt F))
  :: StableHlo.binary main_arg3 main_v22 main_v23 (cmpi .slt : (⟨S262144, .i32⟩ : BufTy).Contents (Elt F) → (⟨S262144, .i32⟩ : BufTy).Contents (Elt F) → (⟨S262144, .i1⟩ : BufTy).Contents (Elt F))
  :: StableHlo.nullary main_c_6 (constantI S_ 32 4096#32)
  :: StableHlo.unary main_c_6 main_v24 (broadcastInDim S262144 ![] bcast_S_S262144 : (⟨S_, .i32⟩ : BufTy).Contents (Elt F) → (⟨S262144, .i32⟩ : BufTy).Contents (Elt F))
  :: StableHlo.binary main_arg3 main_v24 main_v25 (addi : (⟨S262144, .i32⟩ : BufTy).Contents (Elt F) → (⟨S262144, .i32⟩ : BufTy).Contents (Elt F) → (⟨S262144, .i32⟩ : BufTy).Contents (Elt F))
  :: StableHlo.ternary main_v23 main_v25 main_arg3 main_v26 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v26 main_v27 (broadcastInDim S262144x1 ![0] bcast_S262144_S262144x1_0 : (⟨S262144, .i32⟩ : BufTy).Contents (Elt F) → (⟨S262144x1, .i32⟩ : BufTy).Contents (Elt F))
  :: StableHlo.binary main_arg1 main_v27 main_v28 ((fun x i => Host.gather gather_S4096x128_S262144x1_S262144x128_1_0_n_n_0_1_1128 x i) : (⟨S4096x128, .f32⟩ : BufTy).Contents (Elt F) → (⟨S262144x1, .i32⟩ : BufTy).Contents (Elt F) → (⟨S262144x128, .f32⟩ : BufTy).Contents (Elt F))
  :: StableHlo.unary main_arg5 main_v29 ((extractStridedSlice S128x64 ![0, 0] · slices_S256x64_S128x64_0_0) : (⟨S256x64, .f32⟩ : BufTy).Contents (Elt F) → (⟨S128x64, .f32⟩ : BufTy).Contents (Elt F))
  :: StableHlo.binary main_arg0 main_v29 main_v30 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
  :: StableHlo.unary main_arg5 main_v31 ((extractStridedSlice S128x64 ![128, 0] · slices_S256x64_S128x64_128_0) : (⟨S256x64, .f32⟩ : BufTy).Contents (Elt F) → (⟨S128x64, .f32⟩ : BufTy).Contents (Elt F))
  :: StableHlo.binary main_v28 main_v31 main_v32 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
  :: StableHlo.binary main_v30 main_v32 main_v33 (addf : (⟨S262144x64, .f32⟩ : BufTy).Contents (Elt F) → (⟨S262144x64, .f32⟩ : BufTy).Contents (Elt F) → (⟨S262144x64, .f32⟩ : BufTy).Contents (Elt F))
  :: StableHlo.unary main_arg6 main_v34 (broadcastInDim S1x64 ![1] bcast_S64_S1x64_1 : (⟨S64, .f32⟩ : BufTy).Contents (Elt F) → (⟨S1x64, .f32⟩ : BufTy).Contents (Elt F))
  :: StableHlo.unary main_v34 main_v35 (broadcastInDim S262144x64 ![0, 1] bcast_S1x64_S262144x64_0_1 : (⟨S1x64, .f32⟩ : BufTy).Contents (Elt F) → (⟨S262144x64, .f32⟩ : BufTy).Contents (Elt F))
  :: StableHlo.binary main_v33 main_v35 main_v36 (addf : (⟨S262144x64, .f32⟩ : BufTy).Contents (Elt F) → (⟨S262144x64, .f32⟩ : BufTy).Contents (Elt F) → (⟨S262144x64, .f32⟩ : BufTy).Contents (Elt F))
  :: StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S262144x64, .f32⟩) (broadcastInDim S262144x64 ![] bcast_S_S262144x64)
  :: StableHlo.TRef.binary (.of main_v36 : StableHlo.TRef sig ⟨S262144x64, .f32⟩) (.of main_call2_v0 : StableHlo.TRef sig ⟨S262144x64, .f32⟩) (.of main_v37 : StableHlo.TRef sig ⟨S262144x64, .f32⟩) maximumf
  :: StableHlo.binary main_v37 main_arg7 main_v38 ((fun l r => Host.dotGeneral dot_S262144x64_S64x7_S262144x7_1_0_0_1_n_n none l r) : (⟨S262144x64, .f32⟩ : BufTy).Contents (Elt F) → (⟨S64x7, .f32⟩ : BufTy).Contents (Elt F) → (⟨S262144x7, .f32⟩ : BufTy).Contents (Elt F))
  :: StableHlo.unary main_arg8 main_v39 (broadcastInDim S1x7 ![1] bcast_S7_S1x7_1 : (⟨S7, .f32⟩ : BufTy).Contents (Elt F) → (⟨S1x7, .f32⟩ : BufTy).Contents (Elt F))
  :: StableHlo.unary main_v39 main_v40 (broadcastInDim S262144x7 ![0, 1] bcast_S1x7_S262144x7_0_1 : (⟨S1x7, .f32⟩ : BufTy).Contents (Elt F) → (⟨S262144x7, .f32⟩ : BufTy).Contents (Elt F))
  :: StableHlo.binary main_v38 main_v40 main_v41 (addf : (⟨S262144x7, .f32⟩ : BufTy).Contents (Elt F) → (⟨S262144x7, .f32⟩ : BufTy).Contents (Elt F) → (⟨S262144x7, .f32⟩ : BufTy).Contents (Elt F))
  :: StableHlo.nullary main_cst (constant S_ .f32 0xCE6E6B28#32)
  :: StableHlo.unary main_cst main_v42 (broadcastInDim S4096x9x7 ![] bcast_S_S4096x9x7 : (⟨S_, .f32⟩ : BufTy).Contents (Elt F) → (⟨S4096x9x7, .f32⟩ : BufTy).Contents (Elt F))
  :: StableHlo.nullary main_c_7 (constantI S_ 32 0#32)
  :: StableHlo.TRef.unary (.of main_c_7 : StableHlo.TRef sig ⟨S_, .i32⟩) (.of main_call3_v0 : StableHlo.TRef sig ⟨S_, .i32⟩) id
  :: StableHlo.TRef.unary (.of main_call3_v0 : StableHlo.TRef sig ⟨S_, .i32⟩) (.of main_call3_v1 : StableHlo.TRef sig ⟨S262144, .i32⟩) (broadcastInDim S262144 ![] bcast_S_S262144)
  :: StableHlo.TRef.ternary (.of main_v21 : StableHlo.TRef sig ⟨S262144, .i1⟩) (.of main_arg3 : StableHlo.TRef sig ⟨S262144, .i32⟩) (.of main_call3_v1 : StableHlo.TRef sig ⟨S262144, .i32⟩) (.of main_v43 : StableHlo.TRef sig ⟨S262144, .i32⟩) select
  :: StableHlo.nullary main_c_8 (constantI S_ 32 8#32)
  :: StableHlo.TRef.unary (.of main_c_8 : StableHlo.TRef sig ⟨S_, .i32⟩) (.of main_call4_v0 : StableHlo.TRef sig ⟨S_, .i32⟩) id
  :: StableHlo.TRef.unary (.of main_call4_v0 : StableHlo.TRef sig ⟨S_, .i32⟩) (.of main_call4_v1 : StableHlo.TRef sig ⟨S262144, .i32⟩) (broadcastInDim S262144 ![] bcast_S_S262144)
  :: StableHlo.TRef.ternary (.of main_v21 : StableHlo.TRef sig ⟨S262144, .i1⟩) (.of main_v18 : StableHlo.TRef sig ⟨S262144, .i32⟩) (.of main_call4_v1 : StableHlo.TRef sig ⟨S262144, .i32⟩) (.of main_v44 : StableHlo.TRef sig ⟨S262144, .i32⟩) select
  :: StableHlo.nullary main_c_9 (constantI S_ 32 0#32)
  :: StableHlo.unary main_c_9 main_v45 (broadcastInDim S262144 ![] bcast_S_S262144 : (⟨S_, .i32⟩ : BufTy).Contents (Elt F) → (⟨S262144, .i32⟩ : BufTy).Contents (Elt F))
  :: StableHlo.binary main_v43 main_v45 main_v46 (cmpi .slt : (⟨S262144, .i32⟩ : BufTy).Contents (Elt F) → (⟨S262144, .i32⟩ : BufTy).Contents (Elt F) → (⟨S262144, .i1⟩ : BufTy).Contents (Elt F))
  :: StableHlo.nullary main_c_10 (constantI S_ 32 4096#32)
  :: StableHlo.unary main_c_10 main_v47 (broadcastInDim S262144 ![] bcast_S_S262144 : (⟨S_, .i32⟩ : BufTy).Contents (Elt F) → (⟨S262144, .i32⟩ : BufTy).Contents (Elt F))
  :: StableHlo.binary main_v43 main_v47 main_v48 (addi : (⟨S262144, .i32⟩ : BufTy).Contents (Elt F) → (⟨S262144, .i32⟩ : BufTy).Contents (Elt F) → (⟨S262144, .i32⟩ : BufTy).Contents (Elt F))
  :: StableHlo.ternary main_v46 main_v48 main_v43 main_v49 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_11 (constantI S_ 32 0#32)
  :: StableHlo.unary main_c_11 main_v50 (broadcastInDim S262144 ![] bcast_S_S262144 : (⟨S_, .i32⟩ : BufTy).Contents (Elt F) → (⟨S262144, .i32⟩ : BufTy).Contents (Elt F))
  :: StableHlo.binary main_v44 main_v50 main_v51 (cmpi .slt : (⟨S262144, .i32⟩ : BufTy).Contents (Elt F) → (⟨S262144, .i32⟩ : BufTy).Contents (Elt F) → (⟨S262144, .i1⟩ : BufTy).Contents (Elt F))
  :: StableHlo.nullary main_c_12 (constantI S_ 32 9#32)
  :: StableHlo.unary main_c_12 main_v52 (broadcastInDim S262144 ![] bcast_S_S262144 : (⟨S_, .i32⟩ : BufTy).Contents (Elt F) → (⟨S262144, .i32⟩ : BufTy).Contents (Elt F))
  :: StableHlo.binary main_v44 main_v52 main_v53 (addi : (⟨S262144, .i32⟩ : BufTy).Contents (Elt F) → (⟨S262144, .i32⟩ : BufTy).Contents (Elt F) → (⟨S262144, .i32⟩ : BufTy).Contents (Elt F))
  :: StableHlo.ternary main_v51 main_v53 main_v44 main_v54 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v49 main_v55 (broadcastInDim S262144x1 ![0] bcast_S262144_S262144x1_0 : (⟨S262144, .i32⟩ : BufTy).Contents (Elt F) → (⟨S262144x1, .i32⟩ : BufTy).Contents (Elt F))
  :: StableHlo.unary main_v54 main_v56 (broadcastInDim S262144x1 ![0] bcast_S262144_S262144x1_0 : (⟨S262144, .i32⟩ : BufTy).Contents (Elt F) → (⟨S262144x1, .i32⟩ : BufTy).Contents (Elt F))
  :: StableHlo.binary main_v55 main_v56 main_v57 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v42 main_v57 main_v41 main_v58 ((fun x i u => Host.scatter scatter_S4096x9x7_S262144x2_S262144x7_1_01_01_1 (fun _ b => b) x i u) : (⟨S4096x9x7, .f32⟩ : BufTy).Contents (Elt F) → (⟨S262144x2, .i32⟩ : BufTy).Contents (Elt F) → (⟨S262144x7, .f32⟩ : BufTy).Contents (Elt F) → (⟨S4096x9x7, .f32⟩ : BufTy).Contents (Elt F))
  :: StableHlo.unary main_v58 main_v59 ((extractStridedSlice S4096x8x7 ![0, 0, 0] · slices_S4096x9x7_S4096x8x7_0_0_0) : (⟨S4096x9x7, .f32⟩ : BufTy).Contents (Elt F) → (⟨S4096x8x7, .f32⟩ : BufTy).Contents (Elt F))
  :: StableHlo.nullary main_cst_13 (constant S_ .f32 0xCE6E6B28#32)
  :: StableHlo.TRef.unary (.of main_cst_13 : StableHlo.TRef sig ⟨S_, .f32⟩) (.of main_call5_v0 : StableHlo.TRef sig ⟨S4096x8x7, .f32⟩) (broadcastInDim S4096x8x7 ![] bcast_S_S4096x8x7)
  :: StableHlo.TRef.ternary (.of main_arg4 : StableHlo.TRef sig ⟨S4096x8x7, .i1⟩) (.of main_v59 : StableHlo.TRef sig ⟨S4096x8x7, .f32⟩) (.of main_call5_v0 : StableHlo.TRef sig ⟨S4096x8x7, .f32⟩) (.of main_v60 : StableHlo.TRef sig ⟨S4096x8x7, .f32⟩) select
  :: StableHlo.reshape main_v60 main_v61 rfl shapeCasts_S4096x8x7_S4096x56
  :: [] )

set_option maxRecDepth 4096 in
set_option maxHeartbeats 4000000 in
/-- @main is that straight line: its two windows in order, the functions' definitions unfolded at their
    calls and the records at their fields; both sides are one chain of steps once sequencing is
    reassociated. -/
theorem main_eq (c : Dev nD) : main (F := F) c = StableHlo.seq ops := by
  simp only [main, main_part0, main_part1, fn_cumsum.body, fn_cumsum_0.body, fn_cumsum_1.body, fn_cumsum_2.body,
    fn_relu.body, fn_where.body, fn_where_3.body, fn_where_4.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ StableHlo.tcRefs τ sig :=
  ⟨StableHlo.unary_bufs_sub ..,
    StableHlo.nullary_bufs_sub ..,
    StableHlo.unary_bufs_sub ..,
    StableHlo.binary_bufs_sub ..,
    StableHlo.nullary_bufs_sub ..,
    StableHlo.unary_bufs_sub ..,
    StableHlo.unary_bufs_sub ..,
    StableHlo.ternary_bufs_sub ..,
    StableHlo.nullary_bufs_sub ..,
    StableHlo.unary_bufs_sub ..,
    StableHlo.nullary_bufs_sub ..,
    StableHlo.unary_bufs_sub ..,
    StableHlo.binary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.binary_bufs_sub ..,
    StableHlo.nullary_bufs_sub ..,
    StableHlo.unary_bufs_sub ..,
    StableHlo.binary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.binary_bufs_sub ..,
    StableHlo.unary_bufs_sub ..,
    StableHlo.binary_bufs_sub ..,
    StableHlo.unary_bufs_sub ..,
    StableHlo.binary_bufs_sub ..,
    StableHlo.binary_bufs_sub ..,
    StableHlo.unary_bufs_sub ..,
    StableHlo.unary_bufs_sub ..,
    StableHlo.binary_bufs_sub ..,
    StableHlo.nullary_bufs_sub ..,
    StableHlo.unary_bufs_sub ..,
    StableHlo.binary_bufs_sub ..,
    StableHlo.binary_bufs_sub ..,
    StableHlo.unary_bufs_sub ..,
    StableHlo.unary_bufs_sub ..,
    StableHlo.binary_bufs_sub ..,
    StableHlo.nullary_bufs_sub ..,
    StableHlo.unary_bufs_sub ..,
    StableHlo.nullary_bufs_sub ..,
    StableHlo.unary_bufs_sub ..,
    StableHlo.unary_bufs_sub ..,
    StableHlo.ternary_bufs_sub ..,
    StableHlo.nullary_bufs_sub ..,
    StableHlo.unary_bufs_sub ..,
    StableHlo.unary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.unary_bufs_sub ..,
    StableHlo.binary_bufs_sub ..,
    StableHlo.ternary_bufs_sub ..,
    StableHlo.unary_bufs_sub ..,
    StableHlo.nullary_bufs_sub ..,
    StableHlo.unary_bufs_sub ..,
    StableHlo.ternary_bufs_sub ..,
    StableHlo.reshape_bufs_sub ..⟩

/-- At the compiled mesh, for any float values, from any memory with zero counters: every weakly fair
    execution of @main on the TensorCores terminates, and every final state has each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.RefValue.lean ====
/-
  What the reference program computes, as closed terms of its arguments' contents.

  Its @main falls into two parts. The first is the per-node network: node `r` reads the row of the
  table of global features its start index names (the batch id, moved up by the table's height when
  negative), projects its own features and that row through the two halves of the first weight, adds the
  bias, clips below at zero, projects through the second weight and adds the second bias: `outR`, equal
  index by index to the shared specification `Cert.Spec.G` at the start indices `idxR`. The second is
  everything else: the ragged position of each node inside its batch (a running count of the valid
  nodes minus the count before its batch), the write of the network's output into the padded table at
  (batch, position), the slice, the mask and the reshape: `tailR`, a function of the network's output and
  of the arguments it reads, written operation for operation as the program prints it.
-/
import proofs.«118497_j670014898684_2_alg».proof.Proof.RefRun
import proofs.«118497_j670014898684_2_alg».proof.Proof.Spec
import proofs.«118497_j670014898684_2_alg».proof.Proof.LibPlainDot
import proofs.«118497_j670014898684_2_alg».proof.Proof.LibRowGather
import Idealize.ShloMosaic.Lib.KernelVsHost

set_option Elab.async false

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

/-- The start indices of the row gather: the batch id, moved up by 4096 where it is negative, as a column. -/
def idxR (a3 : IVec S262144 32) : IVec S262144x1 32 :=
  broadcastInDim S262144x1 ![0] bcast_S262144_S262144x1_0
    (select (cmpi .slt a3 (broadcastInDim S262144 ![] bcast_S_S262144 (constantI S_ 32 0#32)))
      (addi a3 (broadcastInDim S262144 ![] bcast_S_S262144 (constantI S_ 32 4096#32))) a3)

/-- The network's output as the program prints it: the rows of `a1` gathered at `idxR a3`, the two projections
    through the halves of `a5`, their sum plus the bias `a6`, the maximum with the zero pattern, the projection
    through `a7`, plus the bias `a8`. -/
def outR (a0 : FVec Ideal S262144x128 .f32) (a1 : FVec Ideal S4096x128 .f32) (a3 : IVec S262144 32)
    (a5 : FVec Ideal S256x64 .f32) (a6 : FVec Ideal S64 .f32) (a7 : FVec Ideal S64x7 .f32) (a8 : FVec Ideal S7 .f32) :
    FVec Ideal S262144x7 .f32 :=
  addf
    (Host.dotGeneral dot_S262144x64_S64x7_S262144x7_1_0_0_1_n_n none
      (maximumf
        (addf
          (addf
            (Host.dotGeneral dot_S262144x128_S128x64_S262144x64_1_0_0_1_n_n none a0
              (extractStridedSlice S128x64 ![0, 0] a5 slices_S256x64_S128x64_0_0))
            (Host.dotGeneral dot_S262144x128_S128x64_S262144x64_1_0_0_1_n_n none
              (Host.gather gather_S4096x128_S262144x1_S262144x128_1_0_n_n_0_1_1128 a1 (idxR a3))
              (extractStridedSlice S128x64 ![128, 0] a5 slices_S256x64_S128x64_128_0)))
          (broadcastInDim S262144x64 ![0, 1] bcast_S1x64_S262144x64_0_1 (broadcastInDim S1x64 ![1] bcast_S64_S1x64_1 a6)))
        (broadcastInDim S262144x64 ![] bcast_S_S262144x64 (constant (F := Ideal) S_ .f32 0x00000000#32)))
      a7)
    (broadcastInDim S262144x7 ![0, 1] bcast_S1x7_S262144x7_0_1 (broadcastInDim S1x7 ![1] bcast_S7_S1x7_1 a8))

/-! ## Everything else: the ragged write into the padded table -/

/-- The validity mask widened to 32-bit counts. -/
def cntR (a2 : IVec S262144 1) : IVec S262144 32 := extui 32 a2 natLt_1_32

/-- The running count of the valid nodes up to each node. -/
def run1R (a2 : IVec S262144 1) : IVec S262144 32 :=
  Host.reduceWindow IntOp.addi ![262144] ![1] ![262143] ![0] (cntR a2)
    (broadcastInDim S_ ![] bcast_S_S_ (constantI S_ 32 0#32)) reduceWindows_S262144_S262144_w262144s1p262143_0 h_S_

/-- The one-entry zero put before the running per-batch counts. -/
def zero1R : IVec S1 32 := broadcastInDim S1 ![] bcast_S_S1 (constantI S_ 32 0#32)

/-- The running count of the valid nodes per batch (a scatter-add of the mask at the batch ids, summed along), its
    last entry dropped. -/
def befR (a2 : IVec S262144 1) (a3 : IVec S262144 32) : IVec S4095 32 :=
  extractStridedSlice S4095 ![0]
    (Host.reduceWindow IntOp.addi ![4096] ![1] ![4095] ![0]
      (Host.scatter scatter_S4096_S262144x1_S262144_n_0_0_1 IntOp.addi
        (broadcastInDim S4096 ![] bcast_S_S4096 (constantI S_ 32 0#32))
        (broadcastInDim S262144x1 ![0] bcast_S262144_S262144x1_0 a3) (cntR a2))
      (broadcastInDim S_ ![] bcast_S_S_ (constantI S_ 32 0#32)) reduceWindows_S4096_S4096_w4096s1p4095_0 h_S_)
    slices_S4096_S4095_0

/-- The position of each node among the valid nodes of its batch, from the running count `v1`, and the count of
    the valid nodes of the batches before each batch (`v5` followed by `v7`) read at the node's batch. -/
def posQ (v1 : IVec S262144 32) (v5 : IVec S1 32) (v7 : IVec S4095 32) (a3 : IVec S262144 32) : IVec S262144 32 :=
  subi
    (subi v1 (broadcastInDim S262144 ![] bcast_S_S262144 (constantI S_ 32 1#32)))
    (Host.gather gather_S4096_S262144x1_S262144_n_0_n_n_0_1_1
      (concatenate S4096 0 [⟨S1, v5⟩, ⟨S4095, v7⟩] concatenates_S1_S4095_S4096_d0)
      (broadcastInDim S262144x1 ![0] bcast_S262144_S262144x1_0 (select (cmpi .slt a3 (broadcastInDim S262144 ![] bcast_S_S262144 (constantI S_ 32 0#32)))
          (addi a3 (broadcastInDim S262144 ![] bcast_S_S262144 (constantI S_ 32 4096#32))) a3)))

/-- The nodes kept: valid and among the first eight of their batch. -/
def keepQ (pos : IVec S262144 32) (a2 : IVec S262144 1) : IVec S262144 1 :=
  andi a2 (cmpi .slt pos (broadcastInDim S262144 ![] bcast_S_S262144 (constantI S_ 32 8#32)))

/-- The table row a node is written to: its batch id if kept, row 0 otherwise. -/
def rowQ (keep : IVec S262144 1) (a3 : IVec S262144 32) : IVec S262144 32 :=
  select keep a3 (broadcastInDim S262144 ![] bcast_S_S262144 (id (constantI S_ 32 0#32)))

/-- The table column a node is written to: its position if kept, the ninth (dropped) column otherwise. -/
def colQ (keep : IVec S262144 1) (pos : IVec S262144 32) : IVec S262144 32 :=
  select keep pos (broadcastInDim S262144 ![] bcast_S_S262144 (id (constantI S_ 32 8#32)))

/-- The rows as a column of scatter coordinates, a negative one moved up by the table's 4096 rows. -/
def wrapRowQ (row : IVec S262144 32) : IVec S262144x1 32 :=
  broadcastInDim S262144x1 ![0] bcast_S262144_S262144x1_0 (select (cmpi .slt row (broadcastInDim S262144 ![] bcast_S_S262144 (constantI S_ 32 0#32)))
      (addi row (broadcastInDim S262144 ![] bcast_S_S262144 (constantI S_ 32 4096#32))) row)

/-- The columns as a column of scatter coordinates, a negative one moved up by the padded table's 9 columns. -/
def wrapColQ (c : IVec S262144 32) : IVec S262144x1 32 :=
  broadcastInDim S262144x1 ![0] bcast_S262144_S262144x1_0 (select (cmpi .slt c (broadcastInDim S262144 ![] bcast_S_S262144 (constantI S_ 32 0#32)))
      (addi c (broadcastInDim S262144 ![] bcast_S_S262144 (constantI S_ 32 9#32))) c)

/-- The padded table before the write: the large negative pattern everywhere. -/
def fillR : FVec Ideal S4096x9x7 .f32 :=
  broadcastInDim S4096x9x7 ![] bcast_S_S4096x9x7 (constant (F := Ideal) S_ .f32 0xCE6E6B28#32)

/-- The last operations: `out` written into the table `v42` at the coordinates (`v55`, `v56`), the ninth column
    dropped, the table's mask `a4` applied against the large negative pattern, the last two axes flattened. -/
def tS (v42 : FVec Ideal S4096x9x7 .f32) (v55 v56 : IVec S262144x1 32) (out : FVec Ideal S262144x7 .f32)
    (a4 : IVec S4096x8x7 1) : FVec Ideal S4096x56 .f32 :=
  shapeCast S4096x56
    (select a4
      (extractStridedSlice S4096x8x7 ![0, 0, 0]
        (Host.scatter scatter_S4096x9x7_S262144x2_S262144x7_1_01_01_1 (fun _ b => b) v42
          (concatenate S262144x2 1 [⟨S262144x1, v55⟩, ⟨S262144x1, v56⟩] concatenates_S262144x1_S262144x1_S262144x2_d1)
          out)
        slices_S4096x9x7_S4096x8x7_0_0_0)
      (broadcastInDim S4096x8x7 ![] bcast_S_S4096x8x7 (constant (F := Ideal) S_ .f32 0xCE6E6B28#32)))
    shapeCasts_S4096x8x7_S4096x56

/-- The position of each node among the valid nodes of its batch, of the arguments. -/
def posR (a2 : IVec S262144 1) (a3 : IVec S262144 32) : IVec S262144 32 :=
  posQ (run1R a2) zero1R (befR a2 a3) a3

/-- The nodes kept, of the arguments. -/
def keepR (a2 : IVec S262144 1) (a3 : IVec S262144 32) : IVec S262144 1 := keepQ (posR a2 a3) a2

/-- Everything else, in the printed order, as a function of the network's output `out` and of the validity
    mask `a2`, the batch ids `a3` and the table's mask `a4`. -/
def tailR (out : FVec Ideal S262144x7 .f32) (a2 : IVec S262144 1) (a3 : IVec S262144 32) (a4 : IVec S4096x8x7 1) :
    FVec Ideal S4096x56 .f32 :=
  tS fillR (wrapRowQ (rowQ (keepR a2 a3) a3)) (wrapColQ (colQ (keepR a2 a3) (posR a2 a3))) out a4

/-! ## The operations in three consecutive parts

The operations are cut right before each of the two concatenations, so that each part reads its concatenation's
operands as given contents; an outlined function's operations are written over its call's buffers directly (a typed
reference's conversions are the identity). -/

section Parts

variable {F : FTy → Type} [FloatOps F]

/-- Operations 1 … 14: up to the running per-batch counts, its last entry dropped. -/
abbrev P1 : List (HloOp τ sig (Elt F)) :=
  ( StableHlo.unary main_arg2 main_v0 ((extui 32 · natLt_1_32) : (⟨S262144, .i1⟩ : BufTy).Contents (Elt F) → (⟨S262144, .i32⟩ : BufTy).Contents (Elt F))
  :: StableHlo.nullary main_call0_call0_c (constantI S_ 32 0#32)
  :: StableHlo.unary main_call0_call0_c main_call0_call0_v0 (broadcastInDim S_ ![] bcast_S_S_ : (⟨S_, .i32⟩ : BufTy).Contents (Elt F) → (⟨S_, .i32⟩ : BufTy).Contents (Elt F))
  :: StableHlo.binary main_v0 main_call0_call0_v0 main_v1 ((fun x v => Host.reduceWindow IntOp.addi ![262144] ![1] ![262143] ![0] x v reduceWindows_S262144_S262144_w262144s1p262143_0 h_S_) : (⟨S262144, .i32⟩ : BufTy).Contents (Elt F) → (⟨S_, .i32⟩ : BufTy).Contents (Elt F) → (⟨S262144, .i32⟩ : BufTy).Contents (Elt F))
  :: StableHlo.nullary main_c (constantI S_ 32 0#32)
  :: StableHlo.unary main_c main_v2 (broadcastInDim S4096 ![] bcast_S_S4096 : (⟨S_, .i32⟩ : BufTy).Contents (Elt F) → (⟨S4096, .i32⟩ : BufTy).Contents (Elt F))
  :: StableHlo.unary main_arg3 main_v3 (broadcastInDim S262144x1 ![0] bcast_S262144_S262144x1_0 : (⟨S262144, .i32⟩ : BufTy).Contents (Elt F) → (⟨S262144x1, .i32⟩ : BufTy).Contents (Elt F))
  :: StableHlo.ternary main_v2 main_v3 main_v0 main_v4 ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F))
  :: StableHlo.nullary main_c_0 (constantI S_ 32 0#32)
  :: StableHlo.unary main_c_0 main_v5 (broadcastInDim S1 ![] bcast_S_S1 : (⟨S_, .i32⟩ : BufTy).Contents (Elt F) → (⟨S1, .i32⟩ : BufTy).Contents (Elt F))
  :: StableHlo.nullary main_call1_call0_c (constantI S_ 32 0#32)
  :: StableHlo.unary main_call1_call0_c main_call1_call0_v0 (broadcastInDim S_ ![] bcast_S_S_ : (⟨S_, .i32⟩ : BufTy).Contents (Elt F) → (⟨S_, .i32⟩ : BufTy).Contents (Elt F))
  :: StableHlo.binary main_v4 main_call1_call0_v0 main_v6 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F))
  :: StableHlo.unary main_v6 main_v7 ((extractStridedSlice S4095 ![0] · slices_S4096_S4095_0) : (⟨S4096, .i32⟩ : BufTy).Contents (Elt F) → (⟨S4095, .i32⟩ : BufTy).Contents (Elt F))
  :: [] )

/-- Operations 15 … 82: from the first concatenation up to the two columns of scatter coordinates. -/
abbrev P2 : List (HloOp τ sig (Elt F)) :=
  ( StableHlo.binary main_v5 main_v7 main_v8 ((fun a b => concatenate S4096 0 [⟨S1, a⟩, ⟨S4095, b⟩] concatenates_S1_S4095_S4096_d0) : (⟨S1, .i32⟩ : BufTy).Contents (Elt F) → (⟨S4095, .i32⟩ : BufTy).Contents (Elt F) → (⟨S4096, .i32⟩ : BufTy).Contents (Elt F))
  :: StableHlo.nullary main_c_1 (constantI S_ 32 1#32)
  :: StableHlo.unary main_c_1 main_v9 (broadcastInDim S262144 ![] bcast_S_S262144 : (⟨S_, .i32⟩ : BufTy).Contents (Elt F) → (⟨S262144, .i32⟩ : BufTy).Contents (Elt F))
  :: StableHlo.binary main_v1 main_v9 main_v10 (subi : (⟨S262144, .i32⟩ : BufTy).Contents (Elt F) → (⟨S262144, .i32⟩ : BufTy).Contents (Elt F) → (⟨S262144, .i32⟩ : BufTy).Contents (Elt F))
  :: StableHlo.nullary main_c_2 (constantI S_ 32 0#32)
  :: StableHlo.unary main_c_2 main_v11 (broadcastInDim S262144 ![] bcast_S_S262144 : (⟨S_, .i32⟩ : BufTy).Contents (Elt F) → (⟨S262144, .i32⟩ : BufTy).Contents (Elt F))
  :: StableHlo.binary main_arg3 main_v11 main_v12 (cmpi .slt : (⟨S262144, .i32⟩ : BufTy).Contents (Elt F) → (⟨S262144, .i32⟩ : BufTy).Contents (Elt F) → (⟨S262144, .i1⟩ : BufTy).Contents (Elt F))
  :: StableHlo.nullary main_c_3 (constantI S_ 32 4096#32)
  :: StableHlo.unary main_c_3 main_v13 (broadcastInDim S262144 ![] bcast_S_S262144 : (⟨S_, .i32⟩ : BufTy).Contents (Elt F) → (⟨S262144, .i32⟩ : BufTy).Contents (Elt F))
  :: StableHlo.binary main_arg3 main_v13 main_v14 (addi : (⟨S262144, .i32⟩ : BufTy).Contents (Elt F) → (⟨S262144, .i32⟩ : BufTy).Contents (Elt F) → (⟨S262144, .i32⟩ : BufTy).Contents (Elt F))
  :: StableHlo.ternary main_v12 main_v14 main_arg3 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v15 main_v16 (broadcastInDim S262144x1 ![0] bcast_S262144_S262144x1_0 : (⟨S262144, .i32⟩ : BufTy).Contents (Elt F) → (⟨S262144x1, .i32⟩ : BufTy).Contents (Elt F))
  :: StableHlo.binary main_v8 main_v16 main_v17 ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F))
  :: StableHlo.binary main_v10 main_v17 main_v18 (subi : (⟨S262144, .i32⟩ : BufTy).Contents (Elt F) → (⟨S262144, .i32⟩ : BufTy).Contents (Elt F) → (⟨S262144, .i32⟩ : BufTy).Contents (Elt F))
  :: StableHlo.nullary main_c_4 (constantI S_ 32 8#32)
  :: StableHlo.unary main_c_4 main_v19 (broadcastInDim S262144 ![] bcast_S_S262144 : (⟨S_, .i32⟩ : BufTy).Contents (Elt F) → (⟨S262144, .i32⟩ : BufTy).Contents (Elt F))
  :: StableHlo.binary main_v18 main_v19 main_v20 (cmpi .slt : (⟨S262144, .i32⟩ : BufTy).Contents (Elt F) → (⟨S262144, .i32⟩ : BufTy).Contents (Elt F) → (⟨S262144, .i1⟩ : BufTy).Contents (Elt F))
  :: StableHlo.binary main_arg2 main_v20 main_v21 (andi : (⟨S262144, .i1⟩ : BufTy).Contents (Elt F) → (⟨S262144, .i1⟩ : BufTy).Contents (Elt F) → (⟨S262144, .i1⟩ : BufTy).Contents (Elt F))
  :: StableHlo.nullary main_c_5 (constantI S_ 32 0#32)
  :: StableHlo.unary main_c_5 main_v22 (broadcastInDim S262144 ![] bcast_S_S262144 : (⟨S_, .i32⟩ : BufTy).Contents (Elt F) → (⟨S262144, .i32⟩ : BufTy).Contents (Elt F))
  :: StableHlo.binary main_arg3 main_v22 main_v23 (cmpi .slt : (⟨S262144, .i32⟩ : BufTy).Contents (Elt F) → (⟨S262144, .i32⟩ : BufTy).Contents (Elt F) → (⟨S262144, .i1⟩ : BufTy).Contents (Elt F))
  :: StableHlo.nullary main_c_6 (constantI S_ 32 4096#32)
  :: StableHlo.unary main_c_6 main_v24 (broadcastInDim S262144 ![] bcast_S_S262144 : (⟨S_, .i32⟩ : BufTy).Contents (Elt F) → (⟨S262144, .i32⟩ : BufTy).Contents (Elt F))
  :: StableHlo.binary main_arg3 main_v24 main_v25 (addi : (⟨S262144, .i32⟩ : BufTy).Contents (Elt F) → (⟨S262144, .i32⟩ : BufTy).Contents (Elt F) → (⟨S262144, .i32⟩ : BufTy).Contents (Elt F))
  :: StableHlo.ternary main_v23 main_v25 main_arg3 main_v26 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v26 main_v27 (broadcastInDim S262144x1 ![0] bcast_S262144_S262144x1_0 : (⟨S262144, .i32⟩ : BufTy).Contents (Elt F) → (⟨S262144x1, .i32⟩ : BufTy).Contents (Elt F))
  :: StableHlo.binary main_arg1 main_v27 main_v28 ((fun x i => Host.gather gather_S4096x128_S262144x1_S262144x128_1_0_n_n_0_1_1128 x i) : (⟨S4096x128, .f32⟩ : BufTy).Contents (Elt F) → (⟨S262144x1, .i32⟩ : BufTy).Contents (Elt F) → (⟨S262144x128, .f32⟩ : BufTy).Contents (Elt F))
  :: StableHlo.unary main_arg5 main_v29 ((extractStridedSlice S128x64 ![0, 0] · slices_S256x64_S128x64_0_0) : (⟨S256x64, .f32⟩ : BufTy).Contents (Elt F) → (⟨S128x64, .f32⟩ : BufTy).Contents (Elt F))
  :: StableHlo.binary main_arg0 main_v29 main_v30 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
  :: StableHlo.unary main_arg5 main_v31 ((extractStridedSlice S128x64 ![128, 0] · slices_S256x64_S128x64_128_0) : (⟨S256x64, .f32⟩ : BufTy).Contents (Elt F) → (⟨S128x64, .f32⟩ : BufTy).Contents (Elt F))
  :: StableHlo.binary main_v28 main_v31 main_v32 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
  :: StableHlo.binary main_v30 main_v32 main_v33 (addf : (⟨S262144x64, .f32⟩ : BufTy).Contents (Elt F) → (⟨S262144x64, .f32⟩ : BufTy).Contents (Elt F) → (⟨S262144x64, .f32⟩ : BufTy).Contents (Elt F))
  :: StableHlo.unary main_arg6 main_v34 (broadcastInDim S1x64 ![1] bcast_S64_S1x64_1 : (⟨S64, .f32⟩ : BufTy).Contents (Elt F) → (⟨S1x64, .f32⟩ : BufTy).Contents (Elt F))
  :: StableHlo.unary main_v34 main_v35 (broadcastInDim S262144x64 ![0, 1] bcast_S1x64_S262144x64_0_1 : (⟨S1x64, .f32⟩ : BufTy).Contents (Elt F) → (⟨S262144x64, .f32⟩ : BufTy).Contents (Elt F))
  :: StableHlo.binary main_v33 main_v35 main_v36 (addf : (⟨S262144x64, .f32⟩ : BufTy).Contents (Elt F) → (⟨S262144x64, .f32⟩ : BufTy).Contents (Elt F) → (⟨S262144x64, .f32⟩ : BufTy).Contents (Elt F))
  :: StableHlo.nullary main_call2_cst (constant S_ .f32 0x00000000#32)
  :: StableHlo.unary main_call2_cst main_call2_v0 (broadcastInDim S262144x64 ![] bcast_S_S262144x64 : (⟨S_, .f32⟩ : BufTy).Contents (Elt F) → (⟨S262144x64, .f32⟩ : BufTy).Contents (Elt F))
  :: StableHlo.binary main_v36 main_call2_v0 main_v37 (maximumf : (⟨S262144x64, .f32⟩ : BufTy).Contents (Elt F) → (⟨S262144x64, .f32⟩ : BufTy).Contents (Elt F) → (⟨S262144x64, .f32⟩ : BufTy).Contents (Elt F))
  :: StableHlo.binary main_v37 main_arg7 main_v38 ((fun l r => Host.dotGeneral dot_S262144x64_S64x7_S262144x7_1_0_0_1_n_n none l r) : (⟨S262144x64, .f32⟩ : BufTy).Contents (Elt F) → (⟨S64x7, .f32⟩ : BufTy).Contents (Elt F) → (⟨S262144x7, .f32⟩ : BufTy).Contents (Elt F))
  :: StableHlo.unary main_arg8 main_v39 (broadcastInDim S1x7 ![1] bcast_S7_S1x7_1 : (⟨S7, .f32⟩ : BufTy).Contents (Elt F) → (⟨S1x7, .f32⟩ : BufTy).Contents (Elt F))
  :: StableHlo.unary main_v39 main_v40 (broadcastInDim S262144x7 ![0, 1] bcast_S1x7_S262144x7_0_1 : (⟨S1x7, .f32⟩ : BufTy).Contents (Elt F) → (⟨S262144x7, .f32⟩ : BufTy).Contents (Elt F))
  :: StableHlo.binary main_v38 main_v40 main_v41 (addf : (⟨S262144x7, .f32⟩ : BufTy).Contents (Elt F) → (⟨S262144x7, .f32⟩ : BufTy).Contents (Elt F) → (⟨S262144x7, .f32⟩ : BufTy).Contents (Elt F))
  :: StableHlo.nullary main_cst (constant S_ .f32 0xCE6E6B28#32)
  :: StableHlo.unary main_cst main_v42 (broadcastInDim S4096x9x7 ![] bcast_S_S4096x9x7 : (⟨S_, .f32⟩ : BufTy).Contents (Elt F) → (⟨S4096x9x7, .f32⟩ : BufTy).Contents (Elt F))
  :: StableHlo.nullary main_c_7 (constantI S_ 32 0#32)
  :: StableHlo.unary main_c_7 main_call3_v0 (id : (⟨S_, .i32⟩ : BufTy).Contents (Elt F) → (⟨S_, .i32⟩ : BufTy).Contents (Elt F))
  :: StableHlo.unary main_call3_v0 main_call3_v1 (broadcastInDim S262144 ![] bcast_S_S262144 : (⟨S_, .i32⟩ : BufTy).Contents (Elt F) → (⟨S262144, .i32⟩ : BufTy).Contents (Elt F))
  :: StableHlo.ternary main_v21 main_arg3 main_call3_v1 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_8 (constantI S_ 32 8#32)
  :: StableHlo.unary main_c_8 main_call4_v0 (id : (⟨S_, .i32⟩ : BufTy).Contents (Elt F) → (⟨S_, .i32⟩ : BufTy).Contents (Elt F))
  :: StableHlo.unary main_call4_v0 main_call4_v1 (broadcastInDim S262144 ![] bcast_S_S262144 : (⟨S_, .i32⟩ : BufTy).Contents (Elt F) → (⟨S262144, .i32⟩ : BufTy).Contents (Elt F))
  :: StableHlo.ternary main_v21 main_v18 main_call4_v1 main_v44 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_9 (constantI S_ 32 0#32)
  :: StableHlo.unary main_c_9 main_v45 (broadcastInDim S262144 ![] bcast_S_S262144 : (⟨S_, .i32⟩ : BufTy).Contents (Elt F) → (⟨S262144, .i32⟩ : BufTy).Contents (Elt F))
  :: StableHlo.binary main_v43 main_v45 main_v46 (cmpi .slt : (⟨S262144, .i32⟩ : BufTy).Contents (Elt F) → (⟨S262144, .i32⟩ : BufTy).Contents (Elt F) → (⟨S262144, .i1⟩ : BufTy).Contents (Elt F))
  :: StableHlo.nullary main_c_10 (constantI S_ 32 4096#32)
  :: StableHlo.unary main_c_10 main_v47 (broadcastInDim S262144 ![] bcast_S_S262144 : (⟨S_, .i32⟩ : BufTy).Contents (Elt F) → (⟨S262144, .i32⟩ : BufTy).Contents (Elt F))
  :: StableHlo.binary main_v43 main_v47 main_v48 (addi : (⟨S262144, .i32⟩ : BufTy).Contents (Elt F) → (⟨S262144, .i32⟩ : BufTy).Contents (Elt F) → (⟨S262144, .i32⟩ : BufTy).Contents (Elt F))
  :: StableHlo.ternary main_v46 main_v48 main_v43 main_v49 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_11 (constantI S_ 32 0#32)
  :: StableHlo.unary main_c_11 main_v50 (broadcastInDim S262144 ![] bcast_S_S262144 : (⟨S_, .i32⟩ : BufTy).Contents (Elt F) → (⟨S262144, .i32⟩ : BufTy).Contents (Elt F))
  :: StableHlo.binary main_v44 main_v50 main_v51 (cmpi .slt : (⟨S262144, .i32⟩ : BufTy).Contents (Elt F) → (⟨S262144, .i32⟩ : BufTy).Contents (Elt F) → (⟨S262144, .i1⟩ : BufTy).Contents (Elt F))
  :: StableHlo.nullary main_c_12 (constantI S_ 32 9#32)
  :: StableHlo.unary main_c_12 main_v52 (broadcastInDim S262144 ![] bcast_S_S262144 : (⟨S_, .i32⟩ : BufTy).Contents (Elt F) → (⟨S262144, .i32⟩ : BufTy).Contents (Elt F))
  :: StableHlo.binary main_v44 main_v52 main_v53 (addi : (⟨S262144, .i32⟩ : BufTy).Contents (Elt F) → (⟨S262144, .i32⟩ : BufTy).Contents (Elt F) → (⟨S262144, .i32⟩ : BufTy).Contents (Elt F))
  :: StableHlo.ternary main_v51 main_v53 main_v44 main_v54 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v49 main_v55 (broadcastInDim S262144x1 ![0] bcast_S262144_S262144x1_0 : (⟨S262144, .i32⟩ : BufTy).Contents (Elt F) → (⟨S262144x1, .i32⟩ : BufTy).Contents (Elt F))
  :: StableHlo.unary main_v54 main_v56 (broadcastInDim S262144x1 ![0] bcast_S262144_S262144x1_0 : (⟨S262144, .i32⟩ : BufTy).Contents (Elt F) → (⟨S262144x1, .i32⟩ : BufTy).Contents (Elt F))
  :: [] )

/-- Operations 83 … 89: from the second concatenation to the result. -/
abbrev P3 : List (HloOp τ sig (Elt F)) :=
  ( StableHlo.binary main_v55 main_v56 main_v57 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v42 main_v57 main_v41 main_v58 ((fun x i u => Host.scatter scatter_S4096x9x7_S262144x2_S262144x7_1_01_01_1 (fun _ b => b) x i u) : (⟨S4096x9x7, .f32⟩ : BufTy).Contents (Elt F) → (⟨S262144x2, .i32⟩ : BufTy).Contents (Elt F) → (⟨S262144x7, .f32⟩ : BufTy).Contents (Elt F) → (⟨S4096x9x7, .f32⟩ : BufTy).Contents (Elt F))
  :: StableHlo.unary main_v58 main_v59 ((extractStridedSlice S4096x8x7 ![0, 0, 0] · slices_S4096x9x7_S4096x8x7_0_0_0) : (⟨S4096x9x7, .f32⟩ : BufTy).Contents (Elt F) → (⟨S4096x8x7, .f32⟩ : BufTy).Contents (Elt F))
  :: StableHlo.nullary main_cst_13 (constant S_ .f32 0xCE6E6B28#32)
  :: StableHlo.unary main_cst_13 main_call5_v0 (broadcastInDim S4096x8x7 ![] bcast_S_S4096x8x7 : (⟨S_, .f32⟩ : BufTy).Contents (Elt F) → (⟨S4096x8x7, .f32⟩ : BufTy).Contents (Elt F))
  :: StableHlo.ternary main_arg4 main_v59 main_call5_v0 main_v60 (select : (⟨S4096x8x7, .i1⟩ : BufTy).Contents (Elt F) → (⟨S4096x8x7, .f32⟩ : BufTy).Contents (Elt F) → (⟨S4096x8x7, .f32⟩ : BufTy).Contents (Elt F) → (⟨S4096x8x7, .f32⟩ : BufTy).Contents (Elt F))
  :: StableHlo.reshape main_v60 main_v61 rfl shapeCasts_S4096x8x7_S4096x56
  :: [] )

/-- Operations 1 … 1 of @main's own. -/
abbrev sA0 : List (HloOp τ sig (Elt F)) :=
  ( StableHlo.unary main_arg2 main_v0 ((extui 32 · natLt_1_32) : (⟨S262144, .i1⟩ : BufTy).Contents (Elt F) → (⟨S262144, .i32⟩ : BufTy).Contents (Elt F))
  :: [] )

/-- Operations 2 … 4: an outlined function's, over typed references. -/
abbrev sT0 : List (HloOp τ sig (Elt F)) :=
  ( StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v0 : StableHlo.TRef sig ⟨S_, .i32⟩) (broadcastInDim S_ ![] bcast_S_S_)
  :: StableHlo.TRef.binary (.of main_v0 : StableHlo.TRef sig ⟨S262144, .i32⟩) (.of main_call0_call0_v0 : StableHlo.TRef sig ⟨S_, .i32⟩) (.of main_v1 : StableHlo.TRef sig ⟨S262144, .i32⟩) (fun x v => Host.reduceWindow IntOp.addi ![262144] ![1] ![262143] ![0] x v reduceWindows_S262144_S262144_w262144s1p262143_0 h_S_)
  :: [] )

/-- The same over the call's buffers directly. -/
abbrev sQ0 : List (HloOp τ sig (Elt F)) :=
  ( StableHlo.nullary main_call0_call0_c (constantI S_ 32 0#32)
  :: StableHlo.unary main_call0_call0_c main_call0_call0_v0 (broadcastInDim S_ ![] bcast_S_S_ : (⟨S_, .i32⟩ : BufTy).Contents (Elt F) → (⟨S_, .i32⟩ : BufTy).Contents (Elt F))
  :: StableHlo.binary main_v0 main_call0_call0_v0 main_v1 ((fun x v => Host.reduceWindow IntOp.addi ![262144] ![1] ![262143] ![0] x v reduceWindows_S262144_S262144_w262144s1p262143_0 h_S_) : (⟨S262144, .i32⟩ : BufTy).Contents (Elt F) → (⟨S_, .i32⟩ : BufTy).Contents (Elt F) → (⟨S262144, .i32⟩ : BufTy).Contents (Elt F))
  :: [] )

attribute [local irreducible] Host.reduceWindow Host.gather Host.scatter in
set_option maxRecDepth 4096 in
/-- A typed reference's conversions are the identity. -/
theorem sQ0_eq : (sT0 : List (HloOp τ sig (Elt F))) = sQ0 := rfl

/-- Operations 5 … 10 of @main's own. -/
abbrev sA1 : List (HloOp τ sig (Elt F)) :=
  ( StableHlo.nullary main_c (constantI S_ 32 0#32)
  :: StableHlo.unary main_c main_v2 (broadcastInDim S4096 ![] bcast_S_S4096 : (⟨S_, .i32⟩ : BufTy).Contents (Elt F) → (⟨S4096, .i32⟩ : BufTy).Contents (Elt F))
  :: StableHlo.unary main_arg3 main_v3 (broadcastInDim S262144x1 ![0] bcast_S262144_S262144x1_0 : (⟨S262144, .i32⟩ : BufTy).Contents (Elt F) → (⟨S262144x1, .i32⟩ : BufTy).Contents (Elt F))
  :: StableHlo.ternary main_v2 main_v3 main_v0 main_v4 ((fun x i u => Host.scatter scatter_S4096_S262144x1_S262144_n_0_0_1 IntOp.addi x i u) : (⟨S4096, .i32⟩ : BufTy).Contents (Elt F) → (⟨S262144x1, .i32⟩ : BufTy).Contents (Elt F) → (⟨S262144, .i32⟩ : BufTy).Contents (Elt F) → (⟨S4096, .i32⟩ : BufTy).Contents (Elt F))
  :: StableHlo.nullary main_c_0 (constantI S_ 32 0#32)
  :: StableHlo.unary main_c_0 main_v5 (broadcastInDim S1 ![] bcast_S_S1 : (⟨S_, .i32⟩ : BufTy).Contents (Elt F) → (⟨S1, .i32⟩ : BufTy).Contents (Elt F))
  :: [] )

/-- Operations 11 … 13: an outlined function's, over typed references. -/
abbrev sT1 : List (HloOp τ sig (Elt F)) :=
  ( StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v4 : StableHlo.TRef sig ⟨S4096, .i32⟩) (.of main_call1_call0_v0 : StableHlo.TRef sig ⟨S_, .i32⟩) (.of main_v6 : StableHlo.TRef sig ⟨S4096, .i32⟩) (fun x v => Host.reduceWindow IntOp.addi ![4096] ![1] ![4095] ![0] x v reduceWindows_S4096_S4096_w4096s1p4095_0 h_S_)
  :: [] )

/-- The same over the call's buffers directly. -/
abbrev sQ1 : List (HloOp τ sig (Elt F)) :=
  ( StableHlo.nullary main_call1_call0_c (constantI S_ 32 0#32)
  :: StableHlo.unary main_call1_call0_c main_call1_call0_v0 (broadcastInDim S_ ![] bcast_S_S_ : (⟨S_, .i32⟩ : BufTy).Contents (Elt F) → (⟨S_, .i32⟩ : BufTy).Contents (Elt F))
  :: StableHlo.binary main_v4 main_call1_call0_v0 main_v6 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F))
  :: [] )

attribute [local irreducible] Host.reduceWindow Host.gather Host.scatter in
set_option maxRecDepth 4096 in
/-- A typed reference's conversions are the identity. -/
theorem sQ1_eq : (sT1 : List (HloOp τ sig (Elt F))) = sQ1 := rfl

/-- Operations 14 … 49 of @main's own. -/
abbrev sA2 : List (HloOp τ sig (Elt F)) :=
  ( StableHlo.unary main_v6 main_v7 ((extractStridedSlice S4095 ![0] · slices_S4096_S4095_0) : (⟨S4096, .i32⟩ : BufTy).Contents (Elt F) → (⟨S4095, .i32⟩ : BufTy).Contents (Elt F))
  :: StableHlo.binary main_v5 main_v7 main_v8 ((fun a b => concatenate S4096 0 [⟨S1, a⟩, ⟨S4095, b⟩] concatenates_S1_S4095_S4096_d0) : (⟨S1, .i32⟩ : BufTy).Contents (Elt F) → (⟨S4095, .i32⟩ : BufTy).Contents (Elt F) → (⟨S4096, .i32⟩ : BufTy).Contents (Elt F))
  :: StableHlo.nullary main_c_1 (constantI S_ 32 1#32)
  :: StableHlo.unary main_c_1 main_v9 (broadcastInDim S262144 ![] bcast_S_S262144 : (⟨S_, .i32⟩ : BufTy).Contents (Elt F) → (⟨S262144, .i32⟩ : BufTy).Contents (Elt F))
  :: StableHlo.binary main_v1 main_v9 main_v10 (subi : (⟨S262144, .i32⟩ : BufTy).Contents (Elt F) → (⟨S262144, .i32⟩ : BufTy).Contents (Elt F) → (⟨S262144, .i32⟩ : BufTy).Contents (Elt F))
  :: StableHlo.nullary main_c_2 (constantI S_ 32 0#32)
  :: StableHlo.unary main_c_2 main_v11 (broadcastInDim S262144 ![] bcast_S_S262144 : (⟨S_, .i32⟩ : BufTy).Contents (Elt F) → (⟨S262144, .i32⟩ : BufTy).Contents (Elt F))
  :: StableHlo.binary main_arg3 main_v11 main_v12 (cmpi .slt : (⟨S262144, .i32⟩ : BufTy).Contents (Elt F) → (⟨S262144, .i32⟩ : BufTy).Contents (Elt F) → (⟨S262144, .i1⟩ : BufTy).Contents (Elt F))
  :: StableHlo.nullary main_c_3 (constantI S_ 32 4096#32)
  :: StableHlo.unary main_c_3 main_v13 (broadcastInDim S262144 ![] bcast_S_S262144 : (⟨S_, .i32⟩ : BufTy).Contents (Elt F) → (⟨S262144, .i32⟩ : BufTy).Contents (Elt F))
  :: StableHlo.binary main_arg3 main_v13 main_v14 (addi : (⟨S262144, .i32⟩ : BufTy).Contents (Elt F) → (⟨S262144, .i32⟩ : BufTy).Contents (Elt F) → (⟨S262144, .i32⟩ : BufTy).Contents (Elt F))
  :: StableHlo.ternary main_v12 main_v14 main_arg3 main_v15 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v15 main_v16 (broadcastInDim S262144x1 ![0] bcast_S262144_S262144x1_0 : (⟨S262144, .i32⟩ : BufTy).Contents (Elt F) → (⟨S262144x1, .i32⟩ : BufTy).Contents (Elt F))
  :: StableHlo.binary main_v8 main_v16 main_v17 ((fun x i => Host.gather gather_S4096_S262144x1_S262144_n_0_n_n_0_1_1 x i) : (⟨S4096, .i32⟩ : BufTy).Contents (Elt F) → (⟨S262144x1, .i32⟩ : BufTy).Contents (Elt F) → (⟨S262144, .i32⟩ : BufTy).Contents (Elt F))
  :: StableHlo.binary main_v10 main_v17 main_v18 (subi : (⟨S262144, .i32⟩ : BufTy).Contents (Elt F) → (⟨S262144, .i32⟩ : BufTy).Contents (Elt F) → (⟨S262144, .i32⟩ : BufTy).Contents (Elt F))
  :: StableHlo.nullary main_c_4 (constantI S_ 32 8#32)
  :: StableHlo.unary main_c_4 main_v19 (broadcastInDim S262144 ![] bcast_S_S262144 : (⟨S_, .i32⟩ : BufTy).Contents (Elt F) → (⟨S262144, .i32⟩ : BufTy).Contents (Elt F))
  :: StableHlo.binary main_v18 main_v19 main_v20 (cmpi .slt : (⟨S262144, .i32⟩ : BufTy).Contents (Elt F) → (⟨S262144, .i32⟩ : BufTy).Contents (Elt F) → (⟨S262144, .i1⟩ : BufTy).Contents (Elt F))
  :: StableHlo.binary main_arg2 main_v20 main_v21 (andi : (⟨S262144, .i1⟩ : BufTy).Contents (Elt F) → (⟨S262144, .i1⟩ : BufTy).Contents (Elt F) → (⟨S262144, .i1⟩ : BufTy).Contents (Elt F))
  :: StableHlo.nullary main_c_5 (constantI S_ 32 0#32)
  :: StableHlo.unary main_c_5 main_v22 (broadcastInDim S262144 ![] bcast_S_S262144 : (⟨S_, .i32⟩ : BufTy).Contents (Elt F) → (⟨S262144, .i32⟩ : BufTy).Contents (Elt F))
  :: StableHlo.binary main_arg3 main_v22 main_v23 (cmpi .slt : (⟨S262144, .i32⟩ : BufTy).Contents (Elt F) → (⟨S262144, .i32⟩ : BufTy).Contents (Elt F) → (⟨S262144, .i1⟩ : BufTy).Contents (Elt F))
  :: StableHlo.nullary main_c_6 (constantI S_ 32 4096#32)
  :: StableHlo.unary main_c_6 main_v24 (broadcastInDim S262144 ![] bcast_S_S262144 : (⟨S_, .i32⟩ : BufTy).Contents (Elt F) → (⟨S262144, .i32⟩ : BufTy).Contents (Elt F))
  :: StableHlo.binary main_arg3 main_v24 main_v25 (addi : (⟨S262144, .i32⟩ : BufTy).Contents (Elt F) → (⟨S262144, .i32⟩ : BufTy).Contents (Elt F) → (⟨S262144, .i32⟩ : BufTy).Contents (Elt F))
  :: StableHlo.ternary main_v23 main_v25 main_arg3 main_v26 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v26 main_v27 (broadcastInDim S262144x1 ![0] bcast_S262144_S262144x1_0 : (⟨S262144, .i32⟩ : BufTy).Contents (Elt F) → (⟨S262144x1, .i32⟩ : BufTy).Contents (Elt F))
  :: StableHlo.binary main_arg1 main_v27 main_v28 ((fun x i => Host.gather gather_S4096x128_S262144x1_S262144x128_1_0_n_n_0_1_1128 x i) : (⟨S4096x128, .f32⟩ : BufTy).Contents (Elt F) → (⟨S262144x1, .i32⟩ : BufTy).Contents (Elt F) → (⟨S262144x128, .f32⟩ : BufTy).Contents (Elt F))
  :: StableHlo.unary main_arg5 main_v29 ((extractStridedSlice S128x64 ![0, 0] · slices_S256x64_S128x64_0_0) : (⟨S256x64, .f32⟩ : BufTy).Contents (Elt F) → (⟨S128x64, .f32⟩ : BufTy).Contents (Elt F))
  :: StableHlo.binary main_arg0 main_v29 main_v30 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
  :: StableHlo.unary main_arg5 main_v31 ((extractStridedSlice S128x64 ![128, 0] · slices_S256x64_S128x64_128_0) : (⟨S256x64, .f32⟩ : BufTy).Contents (Elt F) → (⟨S128x64, .f32⟩ : BufTy).Contents (Elt F))
  :: StableHlo.binary main_v28 main_v31 main_v32 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F))
  :: StableHlo.binary main_v30 main_v32 main_v33 (addf : (⟨S262144x64, .f32⟩ : BufTy).Contents (Elt F) → (⟨S262144x64, .f32⟩ : BufTy).Contents (Elt F) → (⟨S262144x64, .f32⟩ : BufTy).Contents (Elt F))
  :: StableHlo.unary main_arg6 main_v34 (broadcastInDim S1x64 ![1] bcast_S64_S1x64_1 : (⟨S64, .f32⟩ : BufTy).Contents (Elt F) → (⟨S1x64, .f32⟩ : BufTy).Contents (Elt F))
  :: StableHlo.unary main_v34 main_v35 (broadcastInDim S262144x64 ![0, 1] bcast_S1x64_S262144x64_0_1 : (⟨S1x64, .f32⟩ : BufTy).Contents (Elt F) → (⟨S262144x64, .f32⟩ : BufTy).Contents (Elt F))
  :: StableHlo.binary main_v33 main_v35 main_v36 (addf : (⟨S262144x64, .f32⟩ : BufTy).Contents (Elt F) → (⟨S262144x64, .f32⟩ : BufTy).Contents (Elt F) → (⟨S262144x64, .f32⟩ : BufTy).Contents (Elt F))
  :: [] )

/-- Operations 50 … 52: an outlined function's, over typed references. -/
abbrev sT2 : List (HloOp τ sig (Elt F)) :=
  ( StableHlo.TRef.nullary (.of main_call2_cst : StableHlo.TRef sig ⟨S_, .f32⟩) (constant S_ .f32 0x00000000#32)
  :: StableHlo.TRef.unary (.of main_call2_cst : StableHlo.TRef sig ⟨S_, .f32⟩) (.of main_call2_v0 : StableHlo.TRef sig ⟨S262144x64, .f32⟩) (broadcastInDim S262144x64 ![] bcast_S_S262144x64)
  :: StableHlo.TRef.binary (.of main_v36 : StableHlo.TRef sig ⟨S262144x64, .f32⟩) (.of main_call2_v0 : StableHlo.TRef sig ⟨S262144x64, .f32⟩) (.of main_v37 : StableHlo.TRef sig ⟨S262144x64, .f32⟩) maximumf
  :: [] )

/-- The same over the call's buffers directly. -/
abbrev sQ2 : List (HloOp τ sig (Elt F)) :=
  ( StableHlo.nullary main_call2_cst (constant S_ .f32 0x00000000#32)
  :: StableHlo.unary main_call2_cst main_call2_v0 (broadcastInDim S262144x64 ![] bcast_S_S262144x64 : (⟨S_, .f32⟩ : BufTy).Contents (Elt F) → (⟨S262144x64, .f32⟩ : BufTy).Contents (Elt F))
  :: StableHlo.binary main_v36 main_call2_v0 main_v37 (maximumf : (⟨S262144x64, .f32⟩ : BufTy).Contents (Elt F) → (⟨S262144x64, .f32⟩ : BufTy).Contents (Elt F) → (⟨S262144x64, .f32⟩ : BufTy).Contents (Elt F))
  :: [] )

attribute [local irreducible] Host.reduceWindow Host.gather Host.scatter in
set_option maxRecDepth 4096 in
/-- A typed reference's conversions are the identity. -/
theorem sQ2_eq : (sT2 : List (HloOp τ sig (Elt F))) = sQ2 := rfl

/-- Operations 53 … 59 of @main's own. -/
abbrev sA3 : List (HloOp τ sig (Elt F)) :=
  ( StableHlo.binary main_v37 main_arg7 main_v38 ((fun l r => Host.dotGeneral dot_S262144x64_S64x7_S262144x7_1_0_0_1_n_n none l r) : (⟨S262144x64, .f32⟩ : BufTy).Contents (Elt F) → (⟨S64x7, .f32⟩ : BufTy).Contents (Elt F) → (⟨S262144x7, .f32⟩ : BufTy).Contents (Elt F))
  :: StableHlo.unary main_arg8 main_v39 (broadcastInDim S1x7 ![1] bcast_S7_S1x7_1 : (⟨S7, .f32⟩ : BufTy).Contents (Elt F) → (⟨S1x7, .f32⟩ : BufTy).Contents (Elt F))
  :: StableHlo.unary main_v39 main_v40 (broadcastInDim S262144x7 ![0, 1] bcast_S1x7_S262144x7_0_1 : (⟨S1x7, .f32⟩ : BufTy).Contents (Elt F) → (⟨S262144x7, .f32⟩ : BufTy).Contents (Elt F))
  :: StableHlo.binary main_v38 main_v40 main_v41 (addf : (⟨S262144x7, .f32⟩ : BufTy).Contents (Elt F) → (⟨S262144x7, .f32⟩ : BufTy).Contents (Elt F) → (⟨S262144x7, .f32⟩ : BufTy).Contents (Elt F))
  :: StableHlo.nullary main_cst (constant S_ .f32 0xCE6E6B28#32)
  :: StableHlo.unary main_cst main_v42 (broadcastInDim S4096x9x7 ![] bcast_S_S4096x9x7 : (⟨S_, .f32⟩ : BufTy).Contents (Elt F) → (⟨S4096x9x7, .f32⟩ : BufTy).Contents (Elt F))
  :: StableHlo.nullary main_c_7 (constantI S_ 32 0#32)
  :: [] )

/-- Operations 60 … 62: an outlined function's, over typed references. -/
abbrev sT3 : List (HloOp τ sig (Elt F)) :=
  ( StableHlo.TRef.unary (.of main_c_7 : StableHlo.TRef sig ⟨S_, .i32⟩) (.of main_call3_v0 : StableHlo.TRef sig ⟨S_, .i32⟩) id
  :: StableHlo.TRef.unary (.of main_call3_v0 : StableHlo.TRef sig ⟨S_, .i32⟩) (.of main_call3_v1 : StableHlo.TRef sig ⟨S262144, .i32⟩) (broadcastInDim S262144 ![] bcast_S_S262144)
  :: StableHlo.TRef.ternary (.of main_v21 : StableHlo.TRef sig ⟨S262144, .i1⟩) (.of main_arg3 : StableHlo.TRef sig ⟨S262144, .i32⟩) (.of main_call3_v1 : StableHlo.TRef sig ⟨S262144, .i32⟩) (.of main_v43 : StableHlo.TRef sig ⟨S262144, .i32⟩) select
  :: [] )

/-- The same over the call's buffers directly. -/
abbrev sQ3 : List (HloOp τ sig (Elt F)) :=
  ( StableHlo.unary main_c_7 main_call3_v0 (id : (⟨S_, .i32⟩ : BufTy).Contents (Elt F) → (⟨S_, .i32⟩ : BufTy).Contents (Elt F))
  :: StableHlo.unary main_call3_v0 main_call3_v1 (broadcastInDim S262144 ![] bcast_S_S262144 : (⟨S_, .i32⟩ : BufTy).Contents (Elt F) → (⟨S262144, .i32⟩ : BufTy).Contents (Elt F))
  :: StableHlo.ternary main_v21 main_arg3 main_call3_v1 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: [] )

attribute [local irreducible] Host.reduceWindow Host.gather Host.scatter in
set_option maxRecDepth 4096 in
/-- A typed reference's conversions are the identity. -/
theorem sQ3_eq : (sT3 : List (HloOp τ sig (Elt F))) = sQ3 := rfl

/-- Operations 63 … 63 of @main's own. -/
abbrev sA4 : List (HloOp τ sig (Elt F)) :=
  ( StableHlo.nullary main_c_8 (constantI S_ 32 8#32)
  :: [] )

/-- Operations 64 … 66: an outlined function's, over typed references. -/
abbrev sT4 : List (HloOp τ sig (Elt F)) :=
  ( StableHlo.TRef.unary (.of main_c_8 : StableHlo.TRef sig ⟨S_, .i32⟩) (.of main_call4_v0 : StableHlo.TRef sig ⟨S_, .i32⟩) id
  :: StableHlo.TRef.unary (.of main_call4_v0 : StableHlo.TRef sig ⟨S_, .i32⟩) (.of main_call4_v1 : StableHlo.TRef sig ⟨S262144, .i32⟩) (broadcastInDim S262144 ![] bcast_S_S262144)
  :: StableHlo.TRef.ternary (.of main_v21 : StableHlo.TRef sig ⟨S262144, .i1⟩) (.of main_v18 : StableHlo.TRef sig ⟨S262144, .i32⟩) (.of main_call4_v1 : StableHlo.TRef sig ⟨S262144, .i32⟩) (.of main_v44 : StableHlo.TRef sig ⟨S262144, .i32⟩) select
  :: [] )

/-- The same over the call's buffers directly. -/
abbrev sQ4 : List (HloOp τ sig (Elt F)) :=
  ( StableHlo.unary main_c_8 main_call4_v0 (id : (⟨S_, .i32⟩ : BufTy).Contents (Elt F) → (⟨S_, .i32⟩ : BufTy).Contents (Elt F))
  :: StableHlo.unary main_call4_v0 main_call4_v1 (broadcastInDim S262144 ![] bcast_S_S262144 : (⟨S_, .i32⟩ : BufTy).Contents (Elt F) → (⟨S262144, .i32⟩ : BufTy).Contents (Elt F))
  :: StableHlo.ternary main_v21 main_v18 main_call4_v1 main_v44 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: [] )

attribute [local irreducible] Host.reduceWindow Host.gather Host.scatter in
set_option maxRecDepth 4096 in
/-- A typed reference's conversions are the identity. -/
theorem sQ4_eq : (sT4 : List (HloOp τ sig (Elt F))) = sQ4 := rfl

/-- Operations 67 … 86 of @main's own. -/
abbrev sA5 : List (HloOp τ sig (Elt F)) :=
  ( StableHlo.nullary main_c_9 (constantI S_ 32 0#32)
  :: StableHlo.unary main_c_9 main_v45 (broadcastInDim S262144 ![] bcast_S_S262144 : (⟨S_, .i32⟩ : BufTy).Contents (Elt F) → (⟨S262144, .i32⟩ : BufTy).Contents (Elt F))
  :: StableHlo.binary main_v43 main_v45 main_v46 (cmpi .slt : (⟨S262144, .i32⟩ : BufTy).Contents (Elt F) → (⟨S262144, .i32⟩ : BufTy).Contents (Elt F) → (⟨S262144, .i1⟩ : BufTy).Contents (Elt F))
  :: StableHlo.nullary main_c_10 (constantI S_ 32 4096#32)
  :: StableHlo.unary main_c_10 main_v47 (broadcastInDim S262144 ![] bcast_S_S262144 : (⟨S_, .i32⟩ : BufTy).Contents (Elt F) → (⟨S262144, .i32⟩ : BufTy).Contents (Elt F))
  :: StableHlo.binary main_v43 main_v47 main_v48 (addi : (⟨S262144, .i32⟩ : BufTy).Contents (Elt F) → (⟨S262144, .i32⟩ : BufTy).Contents (Elt F) → (⟨S262144, .i32⟩ : BufTy).Contents (Elt F))
  :: StableHlo.ternary main_v46 main_v48 main_v43 main_v49 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_11 (constantI S_ 32 0#32)
  :: StableHlo.unary main_c_11 main_v50 (broadcastInDim S262144 ![] bcast_S_S262144 : (⟨S_, .i32⟩ : BufTy).Contents (Elt F) → (⟨S262144, .i32⟩ : BufTy).Contents (Elt F))
  :: StableHlo.binary main_v44 main_v50 main_v51 (cmpi .slt : (⟨S262144, .i32⟩ : BufTy).Contents (Elt F) → (⟨S262144, .i32⟩ : BufTy).Contents (Elt F) → (⟨S262144, .i1⟩ : BufTy).Contents (Elt F))
  :: StableHlo.nullary main_c_12 (constantI S_ 32 9#32)
  :: StableHlo.unary main_c_12 main_v52 (broadcastInDim S262144 ![] bcast_S_S262144 : (⟨S_, .i32⟩ : BufTy).Contents (Elt F) → (⟨S262144, .i32⟩ : BufTy).Contents (Elt F))
  :: StableHlo.binary main_v44 main_v52 main_v53 (addi : (⟨S262144, .i32⟩ : BufTy).Contents (Elt F) → (⟨S262144, .i32⟩ : BufTy).Contents (Elt F) → (⟨S262144, .i32⟩ : BufTy).Contents (Elt F))
  :: StableHlo.ternary main_v51 main_v53 main_v44 main_v54 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v49 main_v55 (broadcastInDim S262144x1 ![0] bcast_S262144_S262144x1_0 : (⟨S262144, .i32⟩ : BufTy).Contents (Elt F) → (⟨S262144x1, .i32⟩ : BufTy).Contents (Elt F))
  :: StableHlo.unary main_v54 main_v56 (broadcastInDim S262144x1 ![0] bcast_S262144_S262144x1_0 : (⟨S262144, .i32⟩ : BufTy).Contents (Elt F) → (⟨S262144x1, .i32⟩ : BufTy).Contents (Elt F))
  :: StableHlo.binary main_v55 main_v56 main_v57 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v42 main_v57 main_v41 main_v58 ((fun x i u => Host.scatter scatter_S4096x9x7_S262144x2_S262144x7_1_01_01_1 (fun _ b => b) x i u) : (⟨S4096x9x7, .f32⟩ : BufTy).Contents (Elt F) → (⟨S262144x2, .i32⟩ : BufTy).Contents (Elt F) → (⟨S262144x7, .f32⟩ : BufTy).Contents (Elt F) → (⟨S4096x9x7, .f32⟩ : BufTy).Contents (Elt F))
  :: StableHlo.unary main_v58 main_v59 ((extractStridedSlice S4096x8x7 ![0, 0, 0] · slices_S4096x9x7_S4096x8x7_0_0_0) : (⟨S4096x9x7, .f32⟩ : BufTy).Contents (Elt F) → (⟨S4096x8x7, .f32⟩ : BufTy).Contents (Elt F))
  :: StableHlo.nullary main_cst_13 (constant S_ .f32 0xCE6E6B28#32)
  :: [] )

/-- Operations 87 … 88: an outlined function's, over typed references. -/
abbrev sT5 : List (HloOp τ sig (Elt F)) :=
  ( StableHlo.TRef.unary (.of main_cst_13 : StableHlo.TRef sig ⟨S_, .f32⟩) (.of main_call5_v0 : StableHlo.TRef sig ⟨S4096x8x7, .f32⟩) (broadcastInDim S4096x8x7 ![] bcast_S_S4096x8x7)
  :: StableHlo.TRef.ternary (.of main_arg4 : StableHlo.TRef sig ⟨S4096x8x7, .i1⟩) (.of main_v59 : StableHlo.TRef sig ⟨S4096x8x7, .f32⟩) (.of main_call5_v0 : StableHlo.TRef sig ⟨S4096x8x7, .f32⟩) (.of main_v60 : StableHlo.TRef sig ⟨S4096x8x7, .f32⟩) select
  :: [] )

/-- The same over the call's buffers directly. -/
abbrev sQ5 : List (HloOp τ sig (Elt F)) :=
  ( StableHlo.unary main_cst_13 main_call5_v0 (broadcastInDim S4096x8x7 ![] bcast_S_S4096x8x7 : (⟨S_, .f32⟩ : BufTy).Contents (Elt F) → (⟨S4096x8x7, .f32⟩ : BufTy).Contents (Elt F))
  :: StableHlo.ternary main_arg4 main_v59 main_call5_v0 main_v60 (select : (⟨S4096x8x7, .i1⟩ : BufTy).Contents (Elt F) → (⟨S4096x8x7, .f32⟩ : BufTy).Contents (Elt F) → (⟨S4096x8x7, .f32⟩ : BufTy).Contents (Elt F) → (⟨S4096x8x7, .f32⟩ : BufTy).Contents (Elt F))
  :: [] )

attribute [local irreducible] Host.reduceWindow Host.gather Host.scatter in
set_option maxRecDepth 4096 in
/-- A typed reference's conversions are the identity. -/
theorem sQ5_eq : (sT5 : List (HloOp τ sig (Elt F))) = sQ5 := rfl

/-- Operations 89 … 89 of @main's own. -/
abbrev sA6 : List (HloOp τ sig (Elt F)) :=
  ( StableHlo.reshape main_v60 main_v61 rfl shapeCasts_S4096x8x7_S4096x56
  :: [] )

set_option maxRecDepth 16384 in
/-- The operations as @main's own stretches and the outlined functions' in turn. -/
theorem ops_segs : (ops : List (HloOp τ sig (Elt F))) = sA0 ++ (sT0 ++ (sA1 ++ (sT1 ++ (sA2 ++ (sT2 ++ (sA3 ++ (sT3 ++ (sA4 ++ (sT4 ++ (sA5 ++ (sT5 ++ (sA6)))))))))))) := by
  simp only [sA0, sT0, sA1, sT1, sA2, sT2, sA3, sT3, sA4, sT4, sA5, sT5, sA6, List.cons_append, List.nil_append]

set_option maxRecDepth 16384 in
/-- The three parts are the same operations, the outlined functions' written over their calls' buffers. -/
theorem ops_split : (ops : List (HloOp τ sig (Elt F))) = P1 ++ (P2 ++ P3) := by
  rw [ops_segs, sQ0_eq, sQ1_eq, sQ2_eq, sQ3_eq, sQ4_eq, sQ5_eq]
  simp only [P1, P2, P3, sA0, sQ0, sA1, sQ1, sA2, sQ2, sA3, sQ3, sA4, sQ4, sA5, sQ5, sA6, List.cons_append, List.nil_append]

/-- The fold over two lists in a row is the fold over the second from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Parts

section Folds

attribute [local irreducible] Host.gather Host.scatter Host.reduceWindow concatenate extractStridedSlice broadcastInDim

set_option maxRecDepth 16384
set_option maxHeartbeats 4000000

/-! ### The first part -/

/-- The running count of the valid nodes after the first part. -/
theorem p1_v1 (V : Valuation τ sig (Elt Ideal)) :
    after P1 V (main_v1 : DevRef τ sig) = run1R (V (main_arg2 : DevRef τ sig)) := by
  after_results_simp
  rfl

/-- The one-entry zero after the first part. -/
theorem p1_v5 (V : Valuation τ sig (Elt Ideal)) :
    after P1 V (main_v5 : DevRef τ sig) = zero1R := by
  after_results_simp
  rfl

/-- The running per-batch counts, the last dropped, after the first part. -/
theorem p1_v7 (V : Valuation τ sig (Elt Ideal)) :
    after P1 V (main_v7 : DevRef τ sig) = befR (V (main_arg2 : DevRef τ sig)) (V (main_arg3 : DevRef τ sig)) := by
  after_results_simp
  rfl

theorem p1_arg0 (V : Valuation τ sig (Elt Ideal)) :
    after P1 V (main_arg0 : DevRef τ sig) = V (main_arg0 : DevRef τ sig) := by
  after_results_simp

theorem p1_arg1 (V : Valuation τ sig (Elt Ideal)) :
    after P1 V (main_arg1 : DevRef τ sig) = V (main_arg1 : DevRef τ sig) := by
  after_results_simp

theorem p1_arg2 (V : Valuation τ sig (Elt Ideal)) :
    after P1 V (main_arg2 : DevRef τ sig) = V (main_arg2 : DevRef τ sig) := by
  after_results_simp

theorem p1_arg3 (V : Valuation τ sig (Elt Ideal)) :
    after P1 V (main_arg3 : DevRef τ sig) = V (main_arg3 : DevRef τ sig) := by
  after_results_simp

theorem p1_arg4 (V : Valuation τ sig (Elt Ideal)) :
    after P1 V (main_arg4 : DevRef τ sig) = V (main_arg4 : DevRef τ sig) := by
  after_results_simp

theorem p1_arg5 (V : Valuation τ sig (Elt Ideal)) :
    after P1 V (main_arg5 : DevRef τ sig) = V (main_arg5 : DevRef τ sig) := by
  after_results_simp

theorem p1_arg6 (V : Valuation τ sig (Elt Ideal)) :
    after P1 V (main_arg6 : DevRef τ sig) = V (main_arg6 : DevRef τ sig) := by
  after_results_simp

theorem p1_arg7 (V : Valuation τ sig (Elt Ideal)) :
    after P1 V (main_arg7 : DevRef τ sig) = V (main_arg7 : DevRef τ sig) := by
  after_results_simp

theorem p1_arg8 (V : Valuation τ sig (Elt Ideal)) :
    after P1 V (main_arg8 : DevRef τ sig) = V (main_arg8 : DevRef τ sig) := by
  after_results_simp

/-! ### The second part -/

/-- The row coordinates after the second part. -/
theorem p2_v55 (W : Valuation τ sig (Elt Ideal)) :
    after P2 W (main_v55 : DevRef τ sig) = wrapRowQ (rowQ (keepQ (posQ (W (main_v1 : DevRef τ sig)) (W (main_v5 : DevRef τ sig)) (W (main_v7 : DevRef τ sig)) (W (main_arg3 : DevRef τ sig))) (W (main_arg2 : DevRef τ sig))) (W (main_arg3 : DevRef τ sig))) := by
  after_results_simp
  rfl

/-- The column coordinates after the second part. -/
theorem p2_v56 (W : Valuation τ sig (Elt Ideal)) :
    after P2 W (main_v56 : DevRef τ sig) = wrapColQ (colQ (keepQ (posQ (W (main_v1 : DevRef τ sig)) (W (main_v5 : DevRef τ sig)) (W (main_v7 : DevRef τ sig)) (W (main_arg3 : DevRef τ sig))) (W (main_arg2 : DevRef τ sig)))
        (posQ (W (main_v1 : DevRef τ sig)) (W (main_v5 : DevRef τ sig)) (W (main_v7 : DevRef τ sig)) (W (main_arg3 : DevRef τ sig)))) := by
  after_results_simp
  rfl

/-- The filled table after the second part. -/
theorem p2_v42 (W : Valuation τ sig (Elt Ideal)) :
    after P2 W (main_v42 : DevRef τ sig) = fillR := by
  after_results_simp
  rfl

/-- The network's output after the second part. -/
theorem p2_v41 (W : Valuation τ sig (Elt Ideal)) :
    after P2 W (main_v41 : DevRef τ sig) = outR (W (main_arg0 : DevRef τ sig)) (W (main_arg1 : DevRef τ sig)) (W (main_arg3 : DevRef τ sig)) (W (main_arg5 : DevRef τ sig)) (W (main_arg6 : DevRef τ sig)) (W (main_arg7 : DevRef τ sig)) (W (main_arg8 : DevRef τ sig)) := by
  after_results_simp
  rfl

theorem p2_arg0 (V : Valuation τ sig (Elt Ideal)) :
    after P2 V (main_arg0 : DevRef τ sig) = V (main_arg0 : DevRef τ sig) := by
  after_results_simp

theorem p2_arg1 (V : Valuation τ sig (Elt Ideal)) :
    after P2 V (main_arg1 : DevRef τ sig) = V (main_arg1 : DevRef τ sig) := by
  after_results_simp

theorem p2_arg2 (V : Valuation τ sig (Elt Ideal)) :
    after P2 V (main_arg2 : DevRef τ sig) = V (main_arg2 : DevRef τ sig) := by
  after_results_simp

theorem p2_arg3 (V : Valuation τ sig (Elt Ideal)) :
    after P2 V (main_arg3 : DevRef τ sig) = V (main_arg3 : DevRef τ sig) := by
  after_results_simp

theorem p2_arg4 (V : Valuation τ sig (Elt Ideal)) :
    after P2 V (main_arg4 : DevRef τ sig) = V (main_arg4 : DevRef τ sig) := by
  after_results_simp

theorem p2_arg5 (V : Valuation τ sig (Elt Ideal)) :
    after P2 V (main_arg5 : DevRef τ sig) = V (main_arg5 : DevRef τ sig) := by
  after_results_simp

theorem p2_arg6 (V : Valuation τ sig (Elt Ideal)) :
    after P2 V (main_arg6 : DevRef τ sig) = V (main_arg6 : DevRef τ sig) := by
  after_results_simp

theorem p2_arg7 (V : Valuation τ sig (Elt Ideal)) :
    after P2 V (main_arg7 : DevRef τ sig) = V (main_arg7 : DevRef τ sig) := by
  after_results_simp

theorem p2_arg8 (V : Valuation τ sig (Elt Ideal)) :
    after P2 V (main_arg8 : DevRef τ sig) = V (main_arg8 : DevRef τ sig) := by
  after_results_simp

/-! ### The third part -/

/-- The result after the third part. -/
theorem p3_v61 (W : Valuation τ sig (Elt Ideal)) :
    after P3 W (main_v61 : DevRef τ sig) = tS (W (main_v42 : DevRef τ sig)) (W (main_v55 : DevRef τ sig)) (W (main_v56 : DevRef τ sig)) (W (main_v41 : DevRef τ sig)) (W (main_arg4 : DevRef τ sig)) := by
  after_results_simp
  rfl

theorem p3_arg0 (V : Valuation τ sig (Elt Ideal)) :
    after P3 V (main_arg0 : DevRef τ sig) = V (main_arg0 : DevRef τ sig) := by
  after_results_simp

theorem p3_arg1 (V : Valuation τ sig (Elt Ideal)) :
    after P3 V (main_arg1 : DevRef τ sig) = V (main_arg1 : DevRef τ sig) := by
  after_results_simp

theorem p3_arg2 (V : Valuation τ sig (Elt Ideal)) :
    after P3 V (main_arg2 : DevRef τ sig) = V (main_arg2 : DevRef τ sig) := by
  after_results_simp

theorem p3_arg3 (V : Valuation τ sig (Elt Ideal)) :
    after P3 V (main_arg3 : DevRef τ sig) = V (main_arg3 : DevRef τ sig) := by
  after_results_simp

theorem p3_arg4 (V : Valuation τ sig (Elt Ideal)) :
    after P3 V (main_arg4 : DevRef τ sig) = V (main_arg4 : DevRef τ sig) := by
  after_results_simp

theorem p3_arg5 (V : Valuation τ sig (Elt Ideal)) :
    after P3 V (main_arg5 : DevRef τ sig) = V (main_arg5 : DevRef τ sig) := by
  after_results_simp

theorem p3_arg6 (V : Valuation τ sig (Elt Ideal)) :
    after P3 V (main_arg6 : DevRef τ sig) = V (main_arg6 : DevRef τ sig) := by
  after_results_simp

theorem p3_arg7 (V : Valuation τ sig (Elt Ideal)) :
    after P3 V (main_arg7 : DevRef τ sig) = V (main_arg7 : DevRef τ sig) := by
  after_results_simp

theorem p3_arg8 (V : Valuation τ sig (Elt Ideal)) :
    after P3 V (main_arg8 : DevRef τ sig) = V (main_arg8 : DevRef τ sig) := by
  after_results_simp

end Folds

/-! ## The whole fold -/

/-- The fold of the operations at the result buffer is `tailR` of `outR` of the arguments' contents. -/
theorem res_eq (V : Valuation τ sig (Elt Ideal)) :
    after ops V (main_v61 : DevRef τ sig)
      = tailR (outR (V (main_arg0 : DevRef τ sig)) (V (main_arg1 : DevRef τ sig)) (V (main_arg3 : DevRef τ sig))
            (V (main_arg5 : DevRef τ sig)) (V (main_arg6 : DevRef τ sig)) (V (main_arg7 : DevRef τ sig)) (V (main_arg8 : DevRef τ sig)))
          (V (main_arg2 : DevRef τ sig)) (V (main_arg3 : DevRef τ sig)) (V (main_arg4 : DevRef τ sig)) := by
  rw [ops_split, after_append', after_append', p3_v61, p2_v42, p2_v55, p2_v56, p2_v41, p2_arg4,
    p1_v1, p1_v5, p1_v7, p1_arg0, p1_arg1, p1_arg2, p1_arg3, p1_arg4, p1_arg5, p1_arg6, p1_arg7, p1_arg8]
  rfl

/-- No operation writes argument 0. -/
theorem arg0_eq (V : Valuation τ sig (Elt Ideal)) :
    after ops V (main_arg0 : DevRef τ sig) = V (main_arg0 : DevRef τ sig) := by
  rw [ops_split, after_append', after_append', p3_arg0, p2_arg0, p1_arg0]

/-- No operation writes argument 1. -/
theorem arg1_eq (V : Valuation τ sig (Elt Ideal)) :
    after ops V (main_arg1 : DevRef τ sig) = V (main_arg1 : DevRef τ sig) := by
  rw [ops_split, after_append', after_append', p3_arg1, p2_arg1, p1_arg1]

/-- No operation writes argument 2. -/
theorem arg2_eq (V : Valuation τ sig (Elt Ideal)) :
    after ops V (main_arg2 : DevRef τ sig) = V (main_arg2 : DevRef τ sig) := by
  rw [ops_split, after_append', after_append', p3_arg2, p2_arg2, p1_arg2]

/-- No operation writes argument 3. -/
theorem arg3_eq (V : Valuation τ sig (Elt Ideal)) :
    after ops V (main_arg3 : DevRef τ sig) = V (main_arg3 : DevRef τ sig) := by
  rw [ops_split, after_append', after_append', p3_arg3, p2_arg3, p1_arg3]

/-- No operation writes argument 4. -/
theorem arg4_eq (V : Valuation τ sig (Elt Ideal)) :
    after ops V (main_arg4 : DevRef τ sig) = V (main_arg4 : DevRef τ sig) := by
  rw [ops_split, after_append', after_append', p3_arg4, p2_arg4, p1_arg4]

/-- No operation writes argument 5. -/
theorem arg5_eq (V : Valuation τ sig (Elt Ideal)) :
    after ops V (main_arg5 : DevRef τ sig) = V (main_arg5 : DevRef τ sig) := by
  rw [ops_split, after_append', after_append', p3_arg5, p2_arg5, p1_arg5]

/-- No operation writes argument 6. -/
theorem arg6_eq (V : Valuation τ sig (Elt Ideal)) :
    after ops V (main_arg6 : DevRef τ sig) = V (main_arg6 : DevRef τ sig) := by
  rw [ops_split, after_append', after_append', p3_arg6, p2_arg6, p1_arg6]

/-- No operation writes argument 7. -/
theorem arg7_eq (V : Valuation τ sig (Elt Ideal)) :
    after ops V (main_arg7 : DevRef τ sig) = V (main_arg7 : DevRef τ sig) := by
  rw [ops_split, after_append', after_append', p3_arg7, p2_arg7, p1_arg7]

/-- No operation writes argument 8. -/
theorem arg8_eq (V : Valuation τ sig (Elt Ideal)) :
    after ops V (main_arg8 : DevRef τ sig) = V (main_arg8 : DevRef τ sig) := by
  rw [ops_split, after_append', after_append', p3_arg8, p2_arg8, p1_arg8]

/-! ## The network's output, index by index -/

/-- A vector of `n` entries laid along one row, then down `m` rows, read at (r, t), is the entry `t`. -/
theorem bias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  refine (broadcastInDim_oneRow_apply h2 _ r t).trans ?_
  refine broadcastInDim_apply ![1] h1 x (ix2 (0 : Fin 1) t) (ix1 t) ?_
  intro a
  fin_cases a
  show t.val = if n = 1 then 0 else t.val
  split_ifs with hn
  · have := t.isLt; omega
  · rfl

/-- The first half of the first weight, read at (k, h). -/
theorem slice_lo_apply (a5 : FVec Ideal S256x64 .f32) (k : Fin 128) (h : Fin 64) :
    extractStridedSlice S128x64 ![0, 0] a5 slices_S256x64_S128x64_0_0 (ix2 k h) = a5 (ix2 (⟨k.val, by omega⟩ : Fin 256) h) := by
  refine extractStridedSlice_apply ![0, 0] a5 _ (ix2 k h) (ix2 (⟨k.val, by omega⟩ : Fin 256) h) ?_
  intro a
  fin_cases a
  · show k.val = 0 + k.val
    omega
  · show h.val = 0 + h.val
    omega

/-- The second half of the first weight, read at (k, h). -/
theorem slice_hi_apply (a5 : FVec Ideal S256x64 .f32) (k : Fin 128) (h : Fin 64) :
    extractStridedSlice S128x64 ![128, 0] a5 slices_S256x64_S128x64_128_0 (ix2 k h) = a5 (ix2 (⟨128 + k.val, by omega⟩ : Fin 256) h) := by
  refine extractStridedSlice_apply ![128, 0] a5 _ (ix2 k h) (ix2 (⟨128 + k.val, by omega⟩ : Fin 256) h) ?_
  intro a
  fin_cases a
  · show 128 + k.val = 128 + k.val
    rfl
  · show h.val = 0 + h.val
    omega

/-- The gathered row of the table of global features, read at (r, k). -/
theorem rows_apply (a1 : FVec Ideal S4096x128 .f32) (idx : IVec S262144x1 32) (r : Fin 262144) (k : Fin 128) :
    Host.gather gather_S4096x128_S262144x1_S262144x128_1_0_n_n_0_1_1128 a1 idx (ix2 r k) = a1 (ix2 (Cert.Spec.row idx r) k) :=
  Cert.Lib.rowGather_apply' (N := 4096) (R := 262144) (C := 128) (by omega) gather_S4096x128_S262144x1_S262144x128_1_0_n_n_0_1_1128
    rfl rfl rfl rfl rfl rfl rfl a1 idx r k

theorem dot1_eq : dot_S262144x128_S128x64_S262144x64_1_0_0_1_n_n = DotDims.plain 262144 128 64 := rfl
theorem dot2_eq : dot_S262144x64_S64x7_S262144x7_1_0_0_1_n_n = DotDims.plain 262144 64 7 := rfl

theorem outR_eq (a0 : FVec Ideal S262144x128 .f32) (a1 : FVec Ideal S4096x128 .f32) (a3 : IVec S262144 32)
    (a5 : FVec Ideal S256x64 .f32) (a6 : FVec Ideal S64 .f32) (a7 : FVec Ideal S64x7 .f32) (a8 : FVec Ideal S7 .f32) :
    outR a0 a1 a3 a5 a6 a7 a8 = Cert.Spec.G a0 a1 (idxR a3) a5 a6 a7 a8 := by
  funext i
  obtain ⟨r, d, rfl⟩ : ∃ (r : Fin 262144) (d : Fin 7), i = ix2 r d := ⟨i 0, i 1, eq_ix2 i⟩
  rw [Cert.Spec.G_apply]
  unfold outR
  rw [addf_apply, bias_apply, dot2_eq, Cert.Lib.plain_dotGeneral_apply]
  congr 1
  refine Finset.sum_congr rfl fun h _ => ?_
  congr 1
  rw [maximumf_apply, addf_apply, addf_apply, bias_apply, dot1_eq, Cert.Lib.plain_dotGeneral_apply, Cert.Lib.plain_dotGeneral_apply]
  unfold Cert.Spec.hid
  congr 1
  congr 1
  congr 1
  · refine Finset.sum_congr rfl fun k _ => ?_
    rw [slice_lo_apply]
  · refine Finset.sum_congr rfl fun k _ => ?_
    rw [slice_hi_apply, rows_apply]

/-! ## The run -/

/-- At the ideal values, from any memory with zero counters: every weakly fair execution of @main terminates with the
    result buffer at `tailR` of the specification's network of the arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
          = tailR (Cert.Spec.G (m ((c.tc : Thread nD τ).loc main_arg0)) (m ((c.tc : Thread nD τ).loc main_arg1))
                (idxR (m ((c.tc : Thread nD τ).loc main_arg3))) (m ((c.tc : Thread nD τ).loc main_arg5))
                (m ((c.tc : Thread nD τ).loc main_arg6)) (m ((c.tc : Thread nD τ).loc main_arg7))
                (m ((c.tc : Thread nD τ).loc main_arg8)))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v61).trans ((res_eq (launchContents m c)).trans
          (congrArg (fun o => tailR o _ _ _) (outR_eq _ _ _ _ _ _ _))),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c)),
        (h c main_arg5).trans (arg5_eq (launchContents m c)),
        (h c main_arg6).trans (arg6_eq (launchContents m c)),
        (h c main_arg7).trans (arg7_eq (launchContents m c)),
        (h c main_arg8).trans (arg8_eq (launchContents m c))⟩)
    (run_main m ρ)

end Cert.ReferenceIdeal.RefValue

end
-- ==== Proof.Bridge.lean ====
/-
  The two programs' host sides are one function: the ragged index, the scatter into the padded table, the cut, the mask
  and the merge of the last two axes are printed operation for operation alike in both programs, over dimension records
  with the same numbers; and so are the start indices of the row gather. Only the network in between is computed
  differently, and both sides have it at the shared specification.
-/
import proofs.«118497_j670014898684_2_alg».proof.Proof.KRun
import proofs.«118497_j670014898684_2_alg».proof.Proof.RefValue

set_option maxRecDepth 16384

noncomputable section

namespace Cert.Proof.Bridge

open Idealize.ShloMosaic

/-- The start indices of the row gather are the same column of wrapped batch ids. -/
theorem idx_eq (a3 : IVec Cert.KernelIdeal.S262144 32) :
    Cert.KernelIdeal.KV.idxK a3 = Cert.ReferenceIdeal.RefValue.idxR a3 := rfl

attribute [local irreducible] Host.gather Host.scatter Host.reduceWindow concatenate extractStridedSlice broadcastInDim in
/-- Everything around the network is the same function of the network's output and of the arguments it reads. -/
theorem tail_eq (out : FVec Ideal Cert.KernelIdeal.S262144x7 .f32) (a2 : IVec Cert.KernelIdeal.S262144 1)
    (a3 : IVec Cert.KernelIdeal.S262144 32) (a4 : IVec Cert.KernelIdeal.S4096x8x7 1) :
    Cert.KernelIdeal.KRun.tailK out a2 a3 a4 = Cert.ReferenceIdeal.RefValue.tailR out a2 a3 a4 := rfl

end Cert.Proof.Bridge

end
-- ==== Proof.lean ====
/-
  The certificate's claims.

  The kernel program projects the table of global features through the lower half of the first weight once, gathers one
  projected row per node, and runs the two-layer network over blocks of 8192 nodes; the reference gathers one table row
  per node first and projects it. At the ideal values a gathered row's projection is the projection's gathered row —
  both are the sum over the 128 features of the row's entries times the weight's —, a change of float format is the
  identity, and a matrix product into a zero accumulator is the host's product, so both programs' per-node outputs are the
  shared specification `Cert.Spec.G` of the argument arrays, index by index; the host lines around it (the ragged index,
  the scatter, the cut, the mask, the merge of axes) are the same function in both. No law of the extended reals beyond
  `0 + x = x` is used, so the precondition is never opened.

  The two frames of the kernel programs are the generated frame certificates; the reference's frame is its run with the
  result dropped; the idealization rewrote nothing.
-/
import proofs.«118497_j670014898684_2_alg».proof.Defs
import proofs.«118497_j670014898684_2_alg».proof.Proof.Gen.Kernel
import proofs.«118497_j670014898684_2_alg».proof.Proof.Gen.Kernel.Skeleton
import proofs.«118497_j670014898684_2_alg».proof.Proof.Gen.Kernel.Launch
import proofs.«118497_j670014898684_2_alg».proof.Proof.Gen.Kernel.Points
import proofs.«118497_j670014898684_2_alg».proof.Proof.Gen.Kernel.Frame
import proofs.«118497_j670014898684_2_alg».proof.Proof.Gen.KernelIdeal
import proofs.«118497_j670014898684_2_alg».proof.Proof.Gen.KernelIdeal.Skeleton
import proofs.«118497_j670014898684_2_alg».proof.Proof.Gen.KernelIdeal.Launch
import proofs.«118497_j670014898684_2_alg».proof.Proof.Gen.KernelIdeal.Points
import proofs.«118497_j670014898684_2_alg».proof.Proof.Gen.KernelIdeal.Frame
import proofs.«118497_j670014898684_2_alg».proof.Proof.Gen.ReferenceIdeal
import proofs.«118497_j670014898684_2_alg».proof.Proof.Gen.Pre_finite_inputs
import proofs.«118497_j670014898684_2_alg».proof.Proof.KRun
import proofs.«118497_j670014898684_2_alg».proof.Proof.RefValue
import proofs.«118497_j670014898684_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefValue.run m ρ)

/-- Both runs end with the result at the same table of the same network output. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]
  refine ((Cert.Proof.Bridge.tail_eq _ _ _ _).trans ?_).symm
  dsimp only [Cert.KernelIdeal.KBlocks.Gm]
  rw [Cert.Proof.Bridge.idx_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
